-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x128 : Shape := ⟨2, ![80000, 128]⟩
abbrev S1280000 : Shape := ⟨1, ![1280000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S80000x128 : S_.BroadcastsInDim S80000x128 (![] : Fin 0 → Fin S80000x128.rank)
  reducesTo_S80000x128_S_d0_1 : S80000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x32 .f32) (main_arg10 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S80000x128 .f32) (main_arg1 : IVec S1280000 32) (main_arg2 : IVec S1280000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x32 .f32) (main_arg10 : FVec F S32 .f32) : IVec S_ 1 :=
  let main_v0 : FVec F S80000x128 .f32 := Host.absf main_arg0
  let main_cst : FVec F S_ .f32 := constant S_ .f32 0x7F800000#32
  let main_v1 : FVec F S80000x128 .f32 := broadcastInDim S80000x128 ![] bcast_S_S80000x128 main_cst
  let main_v2 : IVec S80000x128 1 := cmpf .olt main_v0 main_v1
  let main_c : IVec S_ 1 := constantI S_ 1 1#1
  let main_v3 : IVec S_ 1 := (fun x v => Host.reduce IntOp.andi x v reducesTo_S80000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S80000x128 : Shape := ⟨2, ![80000, 128]⟩
abbrev S1280000 : Shape := ⟨1, ![1280000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S80000 : Shape := ⟨1, ![80000]⟩
abbrev S1280000x1 : Shape := ⟨2, ![1280000, 1]⟩
abbrev S80000x1 : Shape := ⟨2, ![80000, 1]⟩
abbrev S80000x64 : Shape := ⟨2, ![80000, 64]⟩
abbrev S8000x128 : Shape := ⟨2, ![8000, 128]⟩
abbrev S8000x1 : Shape := ⟨2, ![8000, 1]⟩
abbrev S8000x64 : Shape := ⟨2, ![8000, 64]⟩
abbrev S1280000x64 : Shape := ⟨2, ![1280000, 64]⟩
abbrev S1x64 : Shape := ⟨2, ![1, 64]⟩
abbrev S1x32 : Shape := ⟨2, ![1, 32]⟩
abbrev S80000x32 : Shape := ⟨2, ![80000, 32]⟩
abbrev S8000x32 : Shape := ⟨2, ![8000, 32]⟩

abbrev nBuf : Space → Nat
  | .hbm => 95
  | .vmem => 36
  | .smem => 0
  | _ => 0

abbrev bufTy : (tb : Table) → Fin (tcTables nBuf tb) → BufTy
  | .hbm, ⟨0, _⟩ => ⟨S80000x128, .f32⟩
  | .hbm, ⟨1, _⟩ => ⟨S1280000, .i32⟩
  | .hbm, ⟨2, _⟩ => ⟨S1280000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S_, .f32⟩
  | .hbm, ⟨12, _⟩ => ⟨S1280000, .f32⟩
  | .hbm, ⟨13, _⟩ => ⟨S_, .f32⟩
  | .hbm, ⟨14, _⟩ => ⟨S80000, .f32⟩
  | .hbm, ⟨15, _⟩ => ⟨S1280000x1, .i32⟩
  | .hbm, ⟨16, _⟩ => ⟨S80000, .f32⟩
  | .hbm, ⟨17, _⟩ => ⟨S_, .f32⟩
  | .hbm, ⟨18, _⟩ => ⟨S80000, .f32⟩
  | .hbm, ⟨19, _⟩ => ⟨S1280000x1, .i32⟩
  | .hbm, ⟨20, _⟩ => ⟨S80000, .f32⟩
  | .hbm, ⟨21, _⟩ => ⟨S_, .f32⟩
  | .hbm, ⟨22, _⟩ => ⟨S80000, .f32⟩
  | .hbm, ⟨23, _⟩ => ⟨S80000, .i1⟩
  | .hbm, ⟨24, _⟩ => ⟨S_, .f32⟩
  | .hbm, ⟨25, _⟩ => ⟨S80000, .f32⟩
  | .hbm, ⟨26, _⟩ => ⟨S80000, .f32⟩
  | .hbm, ⟨27, _⟩ => ⟨S80000, .f32⟩
  | .hbm, ⟨28, _⟩ => ⟨S_, .f32⟩
  | .hbm, ⟨29, _⟩ => ⟨S_, .f32⟩
  | .hbm, ⟨30, _⟩ => ⟨S80000, .f32⟩
  | .hbm, ⟨31, _⟩ => ⟨S80000, .f32⟩
  | .hbm, ⟨32, _⟩ => ⟨S80000x1, .f32⟩
  | .hbm, ⟨33, _⟩ => ⟨S_, .f32⟩
  | .hbm, ⟨34, _⟩ => ⟨S80000, .f32⟩
  | .hbm, ⟨35, _⟩ => ⟨S80000, .i1⟩
  | .hbm, ⟨36, _⟩ => ⟨S_, .f32⟩
  | .hbm, ⟨37, _⟩ => ⟨S80000, .f32⟩
  | .hbm, ⟨38, _⟩ => ⟨S80000, .f32⟩
  | .hbm, ⟨39, _⟩ => ⟨S80000, .f32⟩
  | .hbm, ⟨40, _⟩ => ⟨S_, .f32⟩
  | .hbm, ⟨41, _⟩ => ⟨S_, .f32⟩
  | .hbm, ⟨42, _⟩ => ⟨S80000, .f32⟩
  | .hbm, ⟨43, _⟩ => ⟨S80000, .f32⟩
  | .hbm, ⟨44, _⟩ => ⟨S80000x1, .f32⟩
  | .hbm, ⟨45, _⟩ => ⟨S80000x64, .bf16⟩
  | .hbm, ⟨46, _⟩ => ⟨S_, .i32⟩
  | .hbm, ⟨47, _⟩ => ⟨S1280000, .i32⟩
  | .hbm, ⟨48, _⟩ => ⟨S1280000, .i1⟩
  | .hbm, ⟨49, _⟩ => ⟨S_, .i32⟩
  | .hbm, ⟨50, _⟩ => ⟨S1280000, .i32⟩
  | .hbm, ⟨51, _⟩ => ⟨S1280000, .i32⟩
  | .hbm, ⟨52, _⟩ => ⟨S1280000, .i32⟩
  | .hbm, ⟨53, _⟩ => ⟨S1280000x1, .i32⟩
  | .hbm, ⟨54, _⟩ => ⟨S1280000x64, .bf16⟩
  | .hbm, ⟨55, _⟩ => ⟨S1280000x64, .f32⟩
  | .hbm, ⟨56, _⟩ => ⟨S_, .f32⟩
  | .hbm, ⟨57, _⟩ => ⟨S80000x64, .f32⟩
  | .hbm, ⟨58, _⟩ => ⟨S1280000x1, .i32⟩
  | .hbm, ⟨59, _⟩ => ⟨S80000x64, .f32⟩
  | .hbm, ⟨60, _⟩ => ⟨S1x64, .f32⟩
  | .hbm, ⟨61, _⟩ => ⟨S80000x64, .bf16⟩
  | .hbm, ⟨62, _⟩ => ⟨S_, .i32⟩
  | .hbm, ⟨63, _⟩ => ⟨S1280000, .i32⟩
  | .hbm, ⟨64, _⟩ => ⟨S1280000, .i1⟩
  | .hbm, ⟨65, _⟩ => ⟨S_, .i32⟩
  | .hbm, ⟨66, _⟩ => ⟨S1280000, .i32⟩
  | .hbm, ⟨67, _⟩ => ⟨S1280000, .i32⟩
  | .hbm, ⟨68, _⟩ => ⟨S1280000, .i32⟩
  | .hbm, ⟨69, _⟩ => ⟨S1280000x1, .i32⟩
  | .hbm, ⟨70, _⟩ => ⟨S1280000x64, .bf16⟩
  | .hbm, ⟨71, _⟩ => ⟨S1280000x64, .f32⟩
  | .hbm, ⟨72, _⟩ => ⟨S_, .f32⟩
  | .hbm, ⟨73, _⟩ => ⟨S80000x64, .f32⟩
  | .hbm, ⟨74, _⟩ => ⟨S1280000x1, .i32⟩
  | .hbm, ⟨75, _⟩ => ⟨S80000x64, .f32⟩
  | .hbm, ⟨76, _⟩ => ⟨S1x64, .f32⟩
  | .hbm, ⟨77, _⟩ => ⟨S80000x64, .bf16⟩
  | .hbm, ⟨78, _⟩ => ⟨S_, .i32⟩
  | .hbm, ⟨79, _⟩ => ⟨S1280000, .i32⟩
  | .hbm, ⟨80, _⟩ => ⟨S1280000, .i1⟩
  | .hbm, ⟨81, _⟩ => ⟨S_, .i32⟩
  | .hbm, ⟨82, _⟩ => ⟨S1280000, .i32⟩
  | .hbm, ⟨83, _⟩ => ⟨S1280000, .i32⟩
  | .hbm, ⟨84, _⟩ => ⟨S1280000, .i32⟩
  | .hbm, ⟨85, _⟩ => ⟨S1280000x1, .i32⟩
  | .hbm, ⟨86, _⟩ => ⟨S1280000x64, .bf16⟩
  | .hbm, ⟨87, _⟩ => ⟨S1280000x64, .f32⟩
  | .hbm, ⟨88, _⟩ => ⟨S_, .f32⟩
  | .hbm, ⟨89, _⟩ => ⟨S80000x64, .f32⟩
  | .hbm, ⟨90, _⟩ => ⟨S1280000x1, .i32⟩
  | .hbm, ⟨91, _⟩ => ⟨S80000x64, .f32⟩
  | .hbm, ⟨92, _⟩ => ⟨S1x64, .f32⟩
  | .hbm, ⟨93, _⟩ => ⟨S1x32, .f32⟩
  | .hbm, ⟨94, _⟩ => ⟨S80000x32, .f32⟩
  | .local _ .vmem, ⟨0, _⟩ => ⟨S8000x128, .f32⟩
  | .local _ .vmem, ⟨1, _⟩ => ⟨S8000x128, .f32⟩
  | .local _ .vmem, ⟨2, _⟩ => ⟨S8000x1, .f32⟩
  | .local _ .vmem, ⟨3, _⟩ => ⟨S8000x1, .f32⟩
  | .local _ .vmem, ⟨4, _⟩ => ⟨S128x64, .f32⟩
  | .local _ .vmem, ⟨5, _⟩ => ⟨S8000x64, .bf16⟩
  | .local _ .vmem, ⟨6, _⟩ => ⟨S8000x64, .bf16⟩
  | .local _ .vmem, ⟨7, _⟩ => ⟨S8000x64, .f32⟩
  | .local _ .vmem, ⟨8, _⟩ => ⟨S8000x64, .f32⟩
  | .local _ .vmem, ⟨9, _⟩ => ⟨S8000x1, .f32⟩
  | .local _ .vmem, ⟨10, _⟩ => ⟨S8000x1, .f32⟩
  | .local _ .vmem, ⟨11, _⟩ => ⟨S1x64, .f32⟩
  | .local _ .vmem, ⟨12, _⟩ => ⟨S8000x1, .f32⟩
  | .local _ .vmem, ⟨13, _⟩ => ⟨S8000x1, .f32⟩
  | .local _ .vmem, ⟨14, _⟩ => ⟨S64x64, .f32⟩
  | .local _ .vmem, ⟨15, _⟩ => ⟨S8000x64, .bf16⟩
  | .local _ .vmem, ⟨16, _⟩ => ⟨S8000x64, .bf16⟩
  | .local _ .vmem, ⟨17, _⟩ => ⟨S8000x64, .f32⟩
  | .local _ .vmem, ⟨18, _⟩ => ⟨S8000x64, .f32⟩
  | .local _ .vmem, ⟨19, _⟩ => ⟨S8000x1, .f32⟩
  | .local _ .vmem, ⟨20, _⟩ => ⟨S8000x1, .f32⟩
  | .local _ .vmem, ⟨21, _⟩ => ⟨S1x64, .f32⟩
  | .local _ .vmem, ⟨22, _⟩ => ⟨S8000x1, .f32⟩
  | .local _ .vmem, ⟨23, _⟩ => ⟨S8000x1, .f32⟩
  | .local _ .vmem, ⟨24, _⟩ => ⟨S64x64, .f32⟩
  | .local _ .vmem, ⟨25, _⟩ => ⟨S8000x64, .bf16⟩
  | .local _ .vmem, ⟨26, _⟩ => ⟨S8000x64, .bf16⟩
  | .local _ .vmem, ⟨27, _⟩ => ⟨S8000x64, .f32⟩
  | .local _ .vmem, ⟨28, _⟩ => ⟨S8000x64, .f32⟩
  | .local _ .vmem, ⟨29, _⟩ => ⟨S8000x1, .f32⟩
  | .local _ .vmem, ⟨30, _⟩ => ⟨S8000x1, .f32⟩
  | .local _ .vmem, ⟨31, _⟩ => ⟨S1x64, .f32⟩
  | .local _ .vmem, ⟨32, _⟩ => ⟨S64x32, .f32⟩
  | .local _ .vmem, ⟨33, _⟩ => ⟨S1x32, .f32⟩
  | .local _ .vmem, ⟨34, _⟩ => ⟨S8000x32, .f32⟩
  | .local _ .vmem, ⟨35, _⟩ => ⟨S8000x32, .f32⟩
  | _, _ => ⟨S80000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v12 : Ref sig .tc := ⟨.hbm, 31, rfl⟩
abbrev main_v13 : Ref sig .tc := ⟨.hbm, 32, rfl⟩
abbrev main_cst_5 : Ref sig .tc := ⟨.hbm, 33, rfl⟩
abbrev main_v14 : Ref sig .tc := ⟨.hbm, 34, rfl⟩
abbrev main_v15 : Ref sig .tc := ⟨.hbm, 35, rfl⟩
abbrev main_cst_6 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_v23 : Ref sig .tc := ⟨.hbm, 48, rfl⟩
abbrev main_c_8 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_10 : Ref sig .tc := ⟨.hbm, 62, rfl⟩
abbrev main_v35 : Ref sig .tc := ⟨.hbm, 63, rfl⟩
abbrev main_v36 : Ref sig .tc := ⟨.hbm, 64, rfl⟩
abbrev main_c_11 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_12 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_13 : Ref sig .tc := ⟨.hbm, 78, rfl⟩
abbrev main_v48 : Ref sig .tc := ⟨.hbm, 79, rfl⟩
abbrev main_v49 : Ref sig .tc := ⟨.hbm, 80, rfl⟩
abbrev main_c_14 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_15 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1280000 : S_.BroadcastsInDim S1280000 (![] : Fin 0 → Fin S1280000.rank)
  bcast_S_S80000 : S_.BroadcastsInDim S80000 (![] : Fin 0 → Fin S80000.rank)
  bcast_S1280000_S1280000x1_0 : S1280000.BroadcastsInDim S1280000x1 (![0] : Fin 1 → Fin S1280000x1.rank)
  shapeCasts_S80000_S80000x1 : S80000.ShapeCasts S80000x1
  inb_S8000x128_S8000x128_0_0 : ∀ a, (![0, 0] : Fin 2 → Nat) a + S8000x128.size a ≤ S8000x128.size a
  h_S8000x128 : 0 < S8000x128.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  packedbf16_S8000x64_S8000x64_0_0 : (Rect.unit (s := S8000x64) ![0, 0] S8000x64.size inb_S8000x64_S8000x64_0_0).PackedRows (EltTy.packing .bf16)
  bcast_S_S80000x64 : S_.BroadcastsInDim S80000x64 (![] : Fin 0 → Fin S80000x64.rank)
  shapeCasts_S64_S1x64 : S64.ShapeCasts S1x64
  shapeCasts_S8000x64_S8000x64 : S8000x64.ShapeCasts S8000x64
  broadcasts_S8000x1_S8000x64 : S8000x1.Broadcasts S8000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S8000x32_S8000x32_0_0 : ∀ a, (![0, 0] : Fin 2 → Nat) a + S8000x32.size a ≤ S8000x32.size a
  h_S8000x32 : 0 < S8000x32.numel
  scatter_S80000_S1280000x1_S1280000_n_0_0_1_wf : ScatterDims.WF S80000 S1280000x1 S1280000 [] [0] [0] 1
  dot_S8000x128_S128x64_S8000x64_1_0_0_1_n_n_wf : DotDims.WF S8000x128 S128x64 S8000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S8000x64_S64x64_S8000x64_1_0_0_1_n_n_wf : DotDims.WF S8000x64 S64x64 S8000x64 [1] [0] [0] [1] [] []
  dot_S8000x64_S64x32_S8000x32_1_0_0_1_n_n_wf : DotDims.WF S8000x64 S64x32 S8000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S80000x128.size a
  hwx0_0 : ∀ i : grid0.Coords, EltTy.bits .f32 = 32 ∨ (Rect.block (s := S80000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S80000x1.size a
  hwx0_1 : ∀ i : grid0.Coords, EltTy.bits .f32 = 32 ∨ (Rect.block (s := S80000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S80000x64.size a
  hwx0_3 : ∀ i : grid0.Coords, EltTy.bits .bf16 = 32 ∨ (Rect.block (s := S80000x64) S8000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S80000x64.size a
  hwx1_0 : ∀ i : grid1.Coords, EltTy.bits .f32 = 32 ∨ (Rect.block (s := S80000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S80000x1.size a
  hwx1_1 : ∀ i : grid1.Coords, EltTy.bits .f32 = 32 ∨ (Rect.block (s := S80000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x1.size a ≤ S80000x1.size a
  hwx1_3 : ∀ i : grid1.Coords, EltTy.bits .f32 = 32 ∨ (Rect.block (s := S80000x1) S8000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S80000x64.size a
  hwx1_5 : ∀ i : grid1.Coords, EltTy.bits .bf16 = 32 ∨ (Rect.block (s := S80000x64) S8000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S80000x64.size a
  hwx2_0 : ∀ i : grid2.Coords, EltTy.bits .f32 = 32 ∨ (Rect.block (s := S80000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S80000x1.size a
  hwx2_1 : ∀ i : grid2.Coords, EltTy.bits .f32 = 32 ∨ (Rect.block (s := S80000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x1.size a ≤ S80000x1.size a
  hwx2_3 : ∀ i : grid2.Coords, EltTy.bits .f32 = 32 ∨ (Rect.block (s := S80000x1) S8000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x64.size a ≤ S80000x64.size a
  hwx2_5 : ∀ i : grid2.Coords, EltTy.bits .bf16 = 32 ∨ (Rect.block (s := S80000x64) S8000x64.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S80000x64.size a
  hwx3_0 : ∀ i : grid3.Coords, EltTy.bits .f32 = 32 ∨ (Rect.block (s := S80000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S80000x1.size a
  hwx3_1 : ∀ i : grid3.Coords, EltTy.bits .f32 = 32 ∨ (Rect.block (s := S80000x1) S8000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x32.size a ≤ S80000x32.size a
  hwx3_5 : ∀ i : grid3.Coords, EltTy.bits .f32 = 32 ∨ (Rect.block (s := S80000x32) S8000x32.size (cc3_transform_5 i) (hinb3_5 i)).WholeWords (EltTy.packing .f32)

variable [Facts₀]

def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S8000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S8000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S8000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S8000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S80000x128 : Shape := ⟨2, ![80000, 128]⟩
abbrev S1280000 : Shape := ⟨1, ![1280000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩
abbrev S80000 : Shape := ⟨1, ![80000]⟩
abbrev S1280000x1 : Shape := ⟨2, ![1280000, 1]⟩
abbrev S80000x1 : Shape := ⟨2, ![80000, 1]⟩
abbrev S80000x64 : Shape := ⟨2, ![80000, 64]⟩
abbrev S1280000x64 : Shape := ⟨2, ![1280000, 64]⟩
abbrev S1x64 : Shape := ⟨2, ![1, 64]⟩
abbrev S80000x32 : Shape := ⟨2, ![80000, 32]⟩
abbrev S1x32 : Shape := ⟨2, ![1, 32]⟩

abbrev nBuf : Space → Nat
  | .hbm => 195
  | .vmem => 0
  | .smem => 0
  | _ => 0

abbrev hbmTy0_0 (i : Nat) : BufTy := match i % 128 with
  | 0 => ⟨S80000x128, .f32⟩
  | 1 => ⟨S1280000, .i32⟩
  | 2 => ⟨S1280000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x32, .f32⟩
  | 10 => ⟨S32, .f32⟩
  | 11 => ⟨S_, .f32⟩
  | 12 => ⟨S1280000, .f32⟩
  | 13 => ⟨S_, .f32⟩
  | 14 => ⟨S80000, .f32⟩
  | 15 => ⟨S1280000x1, .i32⟩
  | 16 => ⟨S80000, .f32⟩
  | 17 => ⟨S_, .f32⟩
  | 18 => ⟨S1280000, .f32⟩
  | 19 => ⟨S_, .f32⟩
  | 20 => ⟨S80000, .f32⟩
  | 21 => ⟨S1280000x1, .i32⟩
  | 22 => ⟨S80000, .f32⟩
  | 23 => ⟨S_, .f32⟩
  | 24 => ⟨S80000, .f32⟩
  | 25 => ⟨S80000, .i1⟩
  | 26 => ⟨S_, .f32⟩
  | 27 => ⟨S80000, .f32⟩
  | 28 => ⟨S80000, .f32⟩
  | 29 => ⟨S80000, .f32⟩
  | 30 => ⟨S_, .f32⟩
  | 31 => ⟨S_, .f32⟩
  | 32 => ⟨S80000, .f32⟩
  | 33 => ⟨S80000, .f32⟩
  | 34 => ⟨S80000x1, .f32⟩
  | 35 => ⟨S_, .f32⟩
  | 36 => ⟨S80000, .f32⟩
  | 37 => ⟨S80000, .i1⟩
  | 38 => ⟨S_, .f32⟩
  | 39 => ⟨S80000, .f32⟩
  | 40 => ⟨S80000, .f32⟩
  | 41 => ⟨S80000, .f32⟩
  | 42 => ⟨S_, .f32⟩
  | 43 => ⟨S_, .f32⟩
  | 44 => ⟨S80000, .f32⟩
  | 45 => ⟨S80000, .f32⟩
  | 46 => ⟨S80000x1, .f32⟩
  | 47 => ⟨S80000x128, .f32⟩
  | 48 => ⟨S80000x128, .f32⟩
  | 49 => ⟨S80000x64, .f32⟩
  | 50 => ⟨S_, .i32⟩
  | 51 => ⟨S1280000, .i32⟩
  | 52 => ⟨S1280000, .i1⟩
  | 53 => ⟨S_, .i32⟩
  | 54 => ⟨S1280000, .i32⟩
  | 55 => ⟨S1280000, .i32⟩
  | 56 => ⟨S1280000, .i32⟩
  | 57 => ⟨S1280000x1, .i32⟩
  | 58 => ⟨S1280000x64, .f32⟩
  | 59 => ⟨S_, .f32⟩
  | 60 => ⟨S80000x64, .f32⟩
  | 61 => ⟨S1280000x1, .i32⟩
  | 62 => ⟨S80000x64, .f32⟩
  | 63 => ⟨S80000x64, .f32⟩
  | 64 => ⟨S80000x64, .f32⟩
  | 65 => ⟨S1x64, .f32⟩
  | 66 => ⟨S80000x64, .f32⟩
  | 67 => ⟨S80000x64, .f32⟩
  | 68 => ⟨S_, .f32⟩
  | 69 => ⟨S80000x64, .f32⟩
  | 70 => ⟨S80000x64, .f32⟩
  | 71 => ⟨S_, .f32⟩
  | 72 => ⟨S1280000, .f32⟩
  | 73 => ⟨S_, .f32⟩
  | 74 => ⟨S80000, .f32⟩
  | 75 => ⟨S1280000x1, .i32⟩
  | 76 => ⟨S80000, .f32⟩
  | 77 => ⟨S_, .f32⟩
  | 78 => ⟨S1280000, .f32⟩
  | 79 => ⟨S_, .f32⟩
  | 80 => ⟨S80000, .f32⟩
  | 81 => ⟨S1280000x1, .i32⟩
  | 82 => ⟨S80000, .f32⟩
  | 83 => ⟨S_, .f32⟩
  | 84 => ⟨S80000, .f32⟩
  | 85 => ⟨S80000, .i1⟩
  | 86 => ⟨S_, .f32⟩
  | 87 => ⟨S80000, .f32⟩
  | 88 => ⟨S80000, .f32⟩
  | 89 => ⟨S80000, .f32⟩
  | 90 => ⟨S_, .f32⟩
  | 91 => ⟨S_, .f32⟩
  | 92 => ⟨S80000, .f32⟩
  | 93 => ⟨S80000, .f32⟩
  | 94 => ⟨S80000x1, .f32⟩
  | 95 => ⟨S_, .f32⟩
  | 96 => ⟨S80000, .f32⟩
  | 97 => ⟨S80000, .i1⟩
  | 98 => ⟨S_, .f32⟩
  | 99 => ⟨S80000, .f32⟩
  | 100 => ⟨S80000, .f32⟩
  | 101 => ⟨S80000, .f32⟩
  | 102 => ⟨S_, .f32⟩
  | 103 => ⟨S_, .f32⟩
  | 104 => ⟨S80000, .f32⟩
  | 105 => ⟨S80000, .f32⟩
  | 106 => ⟨S80000x1, .f32⟩
  | 107 => ⟨S80000x64, .f32⟩
  | 108 => ⟨S80000x64, .f32⟩
  | 109 => ⟨S80000x64, .f32⟩
  | 110 => ⟨S_, .i32⟩
  | 111 => ⟨S1280000, .i32⟩
  | 112 => ⟨S1280000, .i1⟩
  | 113 => ⟨S_, .i32⟩
  | 114 => ⟨S1280000, .i32⟩
  | 115 => ⟨S1280000, .i32⟩
  | 116 => ⟨S1280000, .i32⟩
  | 117 => ⟨S1280000x1, .i32⟩
  | 118 => ⟨S1280000x64, .f32⟩
  | 119 => ⟨S_, .f32⟩
  | 120 => ⟨S80000x64, .f32⟩
  | 121 => ⟨S1280000x1, .i32⟩
  | 122 => ⟨S80000x64, .f32⟩
  | 123 => ⟨S80000x64, .f32⟩
  | 124 => ⟨S80000x64, .f32⟩
  | 125 => ⟨S1x64, .f32⟩
  | 126 => ⟨S80000x64, .f32⟩
  | 127 => ⟨S80000x64, .f32⟩
  | _ => ⟨S80000x128, .f32⟩

abbrev hbmTy0_1 (i : Nat) : BufTy := match i % 128 with
  | 0 => ⟨S_, .f32⟩
  | 1 => ⟨S80000x64, .f32⟩
  | 2 => ⟨S80000x64, .f32⟩
  | 3 => ⟨S_, .f32⟩
  | 4 => ⟨S1280000, .f32⟩
  | 5 => ⟨S_, .f32⟩
  | 6 => ⟨S80000, .f32⟩
  | 7 => ⟨S1280000x1, .i32⟩
  | 8 => ⟨S80000, .f32⟩
  | 9 => ⟨S_, .f32⟩
  | 10 => ⟨S1280000, .f32⟩
  | 11 => ⟨S_, .f32⟩
  | 12 => ⟨S80000, .f32⟩
  | 13 => ⟨S1280000x1, .i32⟩
  | 14 => ⟨S80000, .f32⟩
  | 15 => ⟨S_, .f32⟩
  | 16 => ⟨S80000, .f32⟩
  | 17 => ⟨S80000, .i1⟩
  | 18 => ⟨S_, .f32⟩
  | 19 => ⟨S80000, .f32⟩
  | 20 => ⟨S80000, .f32⟩
  | 21 => ⟨S80000, .f32⟩
  | 22 => ⟨S_, .f32⟩
  | 23 => ⟨S_, .f32⟩
  | 24 => ⟨S80000, .f32⟩
  | 25 => ⟨S80000, .f32⟩
  | 26 => ⟨S80000x1, .f32⟩
  | 27 => ⟨S_, .f32⟩
  | 28 => ⟨S80000, .f32⟩
  | 29 => ⟨S80000, .i1⟩
  | 30 => ⟨S_, .f32⟩
  | 31 => ⟨S80000, .f32⟩
  | 32 => ⟨S80000, .f32⟩
  | 33 => ⟨S80000, .f32⟩
  | 34 => ⟨S_, .f32⟩
  | 35 => ⟨S_, .f32⟩
  | 36 => ⟨S80000, .f32⟩
  | 37 => ⟨S80000, .f32⟩
  | 38 => ⟨S80000x1, .f32⟩
  | 39 => ⟨S80000x64, .f32⟩
  | 40 => ⟨S80000x64, .f32⟩
  | 41 => ⟨S80000x64, .f32⟩
  | 42 => ⟨S_, .i32⟩
  | 43 => ⟨S1280000, .i32⟩
  | 44 => ⟨S1280000, .i1⟩
  | 45 => ⟨S_, .i32⟩
  | 46 => ⟨S1280000, .i32⟩
  | 47 => ⟨S1280000, .i32⟩
  | 48 => ⟨S1280000, .i32⟩
  | 49 => ⟨S1280000x1, .i32⟩
  | 50 => ⟨S1280000x64, .f32⟩
  | 51 => ⟨S_, .f32⟩
  | 52 => ⟨S80000x64, .f32⟩
  | 53 => ⟨S1280000x1, .i32⟩
  | 54 => ⟨S80000x64, .f32⟩
  | 55 => ⟨S80000x64, .f32⟩
  | 56 => ⟨S80000x64, .f32⟩
  | 57 => ⟨S1x64, .f32⟩
  | 58 => ⟨S80000x64, .f32⟩
  | 59 => ⟨S80000x64, .f32⟩
  | 60 => ⟨S_, .f32⟩
  | 61 => ⟨S80000x64, .f32⟩
  | 62 => ⟨S80000x64, .f32⟩
  | 63 => ⟨S80000x32, .f32⟩
  | 64 => ⟨S1x32, .f32⟩
  | 65 => ⟨S80000x32, .f32⟩
  | 66 => ⟨S80000x32, .f32⟩
  | _ => ⟨S80000x128, .f32⟩

abbrev hbmTy (i : Nat) : BufTy := match i / 128 with
  | 0 => hbmTy0_0 i
  | 1 => hbmTy0_1 i
  | _ => ⟨S80000x128, .f32⟩

abbrev bufTy : (tb : Table) → Fin (tcTables nBuf tb) → BufTy
  | .hbm, ⟨i, _⟩ => hbmTy i
  | _, _ => ⟨S80000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_cst_7 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_8 : Ref sig .tc := ⟨.hbm, 42, rfl⟩
abbrev main_call1_v0 : Ref sig .tc := ⟨.hbm, 43, rfl⟩
abbrev main_call1_v1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c : Ref sig .tc := ⟨.hbm, 50, rfl⟩
abbrev main_v25 : Ref sig .tc := ⟨.hbm, 51, rfl⟩
abbrev main_v26 : Ref sig .tc := ⟨.hbm, 52, rfl⟩
abbrev main_c_9 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_10 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call2_cst : Ref sig .tc := ⟨.hbm, 68, rfl⟩
abbrev main_call2_v0 : Ref sig .tc := ⟨.hbm, 69, rfl⟩
abbrev main_v40 : Ref sig .tc := ⟨.hbm, 70, rfl⟩
abbrev main_cst_11 : Ref sig .tc := ⟨.hbm, 71, rfl⟩
abbrev main_v41 : Ref sig .tc := ⟨.hbm, 72, rfl⟩
abbrev main_cst_12 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_13 : Ref sig .tc := ⟨.hbm, 77, rfl⟩
abbrev main_v45 : Ref sig .tc := ⟨.hbm, 78, rfl⟩
abbrev main_cst_14 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_15 : Ref sig .tc := ⟨.hbm, 83, rfl⟩
abbrev main_v49 : Ref sig .tc := ⟨.hbm, 84, rfl⟩
abbrev main_v50 : Ref sig .tc := ⟨.hbm, 85, rfl⟩
abbrev main_cst_16 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_17 : Ref sig .tc := ⟨.hbm, 90, rfl⟩
abbrev main_call3_v0 : Ref sig .tc := ⟨.hbm, 91, rfl⟩
abbrev main_call3_v1 : Ref sig .tc := ⟨.hbm, 92, rfl⟩
abbrev main_v54 : Ref sig .tc := ⟨.hbm, 93, rfl⟩
abbrev main_v55 : Ref sig .tc := ⟨.hbm, 94, rfl⟩
abbrev main_cst_18 : Ref sig .tc := ⟨.hbm, 95, rfl⟩
abbrev main_v56 : Ref sig .tc := ⟨.hbm, 96, rfl⟩
abbrev main_v57 : Ref sig .tc := ⟨.hbm, 97, rfl⟩
abbrev main_cst_19 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_20 : Ref sig .tc := ⟨.hbm, 102, rfl⟩
abbrev main_call4_v0 : Ref sig .tc := ⟨.hbm, 103, rfl⟩
abbrev main_call4_v1 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_21 : Ref sig .tc := ⟨.hbm, 110, rfl⟩
abbrev main_v66 : Ref sig .tc := ⟨.hbm, 111, rfl⟩
abbrev main_v67 : Ref sig .tc := ⟨.hbm, 112, rfl⟩
abbrev main_c_22 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_23 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_call5_cst : Ref sig .tc := ⟨.hbm, 128, rfl⟩
abbrev main_call5_v0 : Ref sig .tc := ⟨.hbm, 129, rfl⟩
abbrev main_v81 : Ref sig .tc := ⟨.hbm, 130, rfl⟩
abbrev main_cst_24 : Ref sig .tc := ⟨.hbm, 131, rfl⟩
abbrev main_v82 : Ref sig .tc := ⟨.hbm, 132, rfl⟩
abbrev main_cst_25 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_26 : Ref sig .tc := ⟨.hbm, 137, rfl⟩
abbrev main_v86 : Ref sig .tc := ⟨.hbm, 138, rfl⟩
abbrev main_cst_27 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_28 : Ref sig .tc := ⟨.hbm, 143, rfl⟩
abbrev main_v90 : Ref sig .tc := ⟨.hbm, 144, rfl⟩
abbrev main_v91 : Ref sig .tc := ⟨.hbm, 145, rfl⟩
abbrev main_cst_29 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_30 : Ref sig .tc := ⟨.hbm, 150, rfl⟩
abbrev main_call6_v0 : Ref sig .tc := ⟨.hbm, 151, rfl⟩
abbrev main_call6_v1 : Ref sig .tc := ⟨.hbm, 152, rfl⟩
abbrev main_v95 : Ref sig .tc := ⟨.hbm, 153, rfl⟩
abbrev main_v96 : Ref sig .tc := ⟨.hbm, 154, rfl⟩
abbrev main_cst_31 : Ref sig .tc := ⟨.hbm, 155, rfl⟩
abbrev main_v97 : Ref sig .tc := ⟨.hbm, 156, rfl⟩
abbrev main_v98 : Ref sig .tc := ⟨.hbm, 157, rfl⟩
abbrev main_cst_32 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_33 : Ref sig .tc := ⟨.hbm, 162, rfl⟩
abbrev main_call7_v0 : Ref sig .tc := ⟨.hbm, 163, rfl⟩
abbrev main_call7_v1 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_c_34 : Ref sig .tc := ⟨.hbm, 170, rfl⟩
abbrev main_v107 : Ref sig .tc := ⟨.hbm, 171, rfl⟩
abbrev main_v108 : Ref sig .tc := ⟨.hbm, 172, rfl⟩
abbrev main_c_35 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_36 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_call8_cst : Ref sig .tc := ⟨.hbm, 188, rfl⟩
abbrev main_call8_v0 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩

abbrev nD : Nat := 1
abbrev τ : Topo := Topo.v7x

variable {F : FTy → Type} [FloatOps F]

class Facts₀ : Prop where
  bcast_S_S1280000 : S_.BroadcastsInDim S1280000 (![] : Fin 0 → Fin S1280000.rank)
  bcast_S_S80000 : S_.BroadcastsInDim S80000 (![] : Fin 0 → Fin S80000.rank)
  bcast_S1280000_S1280000x1_0 : S1280000.BroadcastsInDim S1280000x1 (![0] : Fin 1 → Fin S1280000x1.rank)
  bcast_S80000_S80000x1_0 : S80000.BroadcastsInDim S80000x1 (![0] : Fin 1 → Fin S80000x1.rank)
  bcast_S80000x1_S80000x128_0_1 : S80000x1.BroadcastsInDim S80000x128 (![0, 1] : Fin 2 → Fin S80000x128.rank)
  bcast_S_S80000x64 : S_.BroadcastsInDim S80000x64 (![] : Fin 0 → Fin S80000x64.rank)
  bcast_S80000x1_S80000x64_0_1 : S80000x1.BroadcastsInDim S80000x64 (![0, 1] : Fin 2 → Fin S80000x64.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  bcast_S32_S1x32_1 : S32.BroadcastsInDim S1x32 (![1] : Fin 1 → Fin S1x32.rank)
  bcast_S1x32_S80000x32_0_1 : S1x32.BroadcastsInDim S80000x32 (![0, 1] : Fin 2 → Fin S80000x32.rank)
  scatter_S80000_S1280000x1_S1280000_n_0_0_1_wf : ScatterDims.WF S80000 S1280000x1 S1280000 [] [0] [0] 1
  dot_S80000x128_S128x64_S80000x64_1_0_0_1_n_n_wf : DotDims.WF S80000x128 S128x64 S80000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S80000x64_S64x64_S80000x64_1_0_0_1_n_n_wf : DotDims.WF S80000x64 S64x64 S80000x64 [1] [0] [0] [1] [] []
  dot_S80000x64_S64x32_S80000x32_1_0_0_1_n_n_wf : DotDims.WF S80000x64 S64x32 S80000x32 [1] [0] [0] [1] [] []

variable [Facts₀]

def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf
def dot_S80000x128_S128x64_S80000x64_1_0_0_1_n_n : DotDims S80000x128 S128x64 S80000x64 where
  lhsContracting := [1]
  rhsContracting := [0]
  lhsNonContracting := [0]
  rhsNonContracting := [1]
  lhsBatch := []
  rhsBatch := []
  wf := dot_S80000x128_S128x64_S80000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def dot_S80000x64_S64x32_S80000x32_1_0_0_1_n_n : DotDims S80000x64 S64x32 S80000x32 where
  lhsContracting := [1]
  rhsContracting := [0]
  lhsNonContracting := [0]
  rhsNonContracting := [1]
  lhsBatch := []
  rhsBatch := []
  wf := dot_S80000x64_S64x32_S80000x32_1_0_0_1_n_n_wf

class Facts : Prop extends Facts₀ where

variable [Facts]
-- ==== Proof.LibPlainDot.lean ====
/-
  Indices of a plain matrix product, built from an output index and a shared coordinate.

  For an M×K matrix times a K×N matrix, entry (r, c) of the product is the sum over k of l (r, k) · r (k, c).
  `lhsAt i k` is the left operand's index (i 0, k), `rhsAt i k` the right operand's (k, i 1), and `rowAt i` is
  (0, i 1): where a one-row matrix added to every row is read.
-/
import Idealize.ShloMosaic.Lib.ValueIdx

namespace Idealize.ShloMosaic.PlainDot

open Idealize.ShloMosaic

/-- The left operand's index for output index `i` and shared coordinate `k`: (i 0, k). -/
abbrev lhsAt {M K N : Nat} (i : (⟨2, ![M, N]⟩ : Shape).Idx) (k : Fin K) : (⟨2, ![M, K]⟩ : Shape).Idx :=
  fun a => match a with
  | ⟨0, _⟩ => ⟨(i 0).val, (i 0).isLt⟩
  | ⟨1, _⟩ => ⟨k.val, k.isLt⟩

/-- The right operand's index: (k, i 1). -/
abbrev rhsAt {M K N : Nat} (i : (⟨2, ![M, N]⟩ : Shape).Idx) (k : Fin K) : (⟨2, ![K, N]⟩ : Shape).Idx :=
  fun a => match a with
  | ⟨0, _⟩ => ⟨k.val, k.isLt⟩
  | ⟨1, _⟩ => ⟨(i 1).val, (i 1).isLt⟩

/-- Column `i 1` of a one-row matrix: (0, i 1). -/
abbrev rowAt {M N : Nat} (i : (⟨2, ![M, N]⟩ : Shape).Idx) : (⟨2, ![1, N]⟩ : Shape).Idx :=
  fun a => match a with
  | ⟨0, _⟩ => ⟨0, Nat.one_pos⟩
  | ⟨1, _⟩ => ⟨(i 1).val, (i 1).isLt⟩

end Idealize.ShloMosaic.PlainDot
-- ==== Proof.LibRowForms.lean ====
/-
  Rows, columns and a plain matrix product, read at an index.

  A column is an [a, 1] array and a row a [1, b] array. Scaling every row of a matrix by its own factor
  multiplies entry (p, q) by the column's entry (p, 0); adding one row to every row adds the row's entry (0, q).
  A product of an M×K by a K×N matrix has, at (r, c), the sum over k of l (r, k) · r (k, c), whatever record
  spells the contraction, provided the record's operand indices have those coordinates.
-/
import Idealize.ShloMosaic.Lib.ValueIdx
import Idealize.ShloMosaic.Lib.ValueLayout
import Idealize.ShloMosaic.Lib.Pipeline.Value
import Idealize.ShloMosaic.PureOps.Ideal.Laws
import proofs.«113721_j50302656971357_2_alg».proof.Proof.LibPlainDot

noncomputable section

open scoped BigOperators

namespace Idealize.ShloMosaic.PlainDot

open Idealize.ShloMosaic Idealize.ShloMosaic.ValueIdx

variable {α : Type}

/-- Row `i 0` of a one-column matrix: (i 0, 0). -/
abbrev colAt {M N : Nat} (i : (⟨2, ![M, N]⟩ : Shape).Idx) : (⟨2, ![M, 1]⟩ : Shape).Idx :=
  fun a => match a with
  | ⟨0, _⟩ => ⟨(i 0).val, (i 0).isLt⟩
  | ⟨1, _⟩ => ⟨0, Nat.one_pos⟩

/-- An [a, 1] column broadcast to [a, b] reads, at `j`, the column's entry in `j`'s row. -/
theorem broadcastTo_col_apply {a b : ℕ} (v : (⟨2, ![a, 1]⟩ : Shape).Idx → α) (h : (⟨2, ![a, 1]⟩ : Shape).Broadcasts ⟨2, ![a, b]⟩)
    (j : (⟨2, ![a, b]⟩ : Shape).Idx) : broadcastTo ⟨2, ![a, b]⟩ v h j = v (colAt j) := by
  refine broadcastTo_apply v h j (colAt j) fun ax => ?_
  match ax with
  | ⟨0, _⟩ =>
    show (j 0).val = if a = 1 then 0 else (j 0).val
    split
    · have := (j 0).isLt
      have h0 : (j 0).val < a := this
      omega
    · rfl
  | ⟨1, _⟩ => rfl

/-- A [1, b] row broadcast to [a, b] reads, at `j`, the row's entry in `j`'s column. -/
theorem broadcastTo_row_apply {a b : ℕ} (v : (⟨2, ![1, b]⟩ : Shape).Idx → α) (h : (⟨2, ![1, b]⟩ : Shape).Broadcasts ⟨2, ![a, b]⟩)
    (j : (⟨2, ![a, b]⟩ : Shape).Idx) : broadcastTo ⟨2, ![a, b]⟩ v h j = v (rowAt j) := by
  refine broadcastTo_apply v h j (rowAt j) fun ax => ?_
  match ax with
  | ⟨0, _⟩ => rfl
  | ⟨1, _⟩ =>
    show (j 1).val = if b = 1 then 0 else (j 1).val
    split
    · have := (j 1).isLt
      have h1 : (j 1).val < b := this
      omega
    · rfl

/-- An [a] vector cast to an [a, 1] column reads, at `j`, the vector at `j`'s row. -/
theorem shapeCast_keepdims_apply {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 ⟨(j 0).val, (j 0).isLt⟩) :=
  shapeCast_apply x h _ _ (by
    rw [Shape.rowMajor_val_two, Shape.rowMajor_val_one]
    have h1 : (j 1).val < 1 := (j 1).isLt
    show (j 0).val = (j 0).val * 1 + (j 1).val
    omega)

/-- The sum a plain product contracts over, re-indexed by the shared coordinate: for a record `D` whose one contracted
    axis has extent `K` and whose operand indices at output index `i` and contraction index `q` are (i 0, q) and (q, i 1). -/
theorem sum_contr_eq {M K N : ℕ} (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (l : (⟨2, ![M, K]⟩ : Shape).Idx → EReal) (r : (⟨2, ![K, N]⟩ : Shape).Idx → EReal) (i : (⟨2, ![M, N]⟩ : Shape).Idx) :
    ∑ q : D.contr.Idx, l (D.lhsIdx i q) * r (D.rhsIdx i q) = ∑ k : Fin K, l (lhsAt i k) * r (rhsAt i k) := by
  rw [← Equiv.sum_comp (contrEquiv1 D K hr hs).symm]
  refine Finset.sum_congr rfl fun k _ => ?_
  have hk := contrEquiv1_symm_val D K hr hs k
  have el : D.lhsIdx i ((contrEquiv1 D K hr hs).symm k) = lhsAt i k := funext fun a => Fin.ext (by
    match a with
    | ⟨0, _⟩ => exact hl0 _ _
    | ⟨1, _⟩ => exact (hl1 _ _).trans hk)
  have er : D.rhsIdx i ((contrEquiv1 D K hr hs).symm k) = rhsAt i k := funext fun a => Fin.ext (by
    match a with
    | ⟨0, _⟩ => exact (hr0 _ _).trans hk
    | ⟨1, _⟩ => exact hr1 _ _)
  rw [el, er]

/-! ## The host's `broadcast_in_dim` of a column, a row and a vector -/

/-- An [a, 1] column placed on both axes of [a, b] reads, at `j`, the column's entry in `j`'s row. -/
theorem broadcastInDim_col_apply {a b : ℕ} (h : (⟨2, ![a, 1]⟩ : Shape).BroadcastsInDim ⟨2, ![a, b]⟩ ![0, 1])
    (v : (⟨2, ![a, 1]⟩ : Shape).Idx → α) (j : (⟨2, ![a, b]⟩ : Shape).Idx) :
    broadcastInDim ⟨2, ![a, b]⟩ ![0, 1] h v j = v (colAt j) := by
  refine broadcastInDim_apply _ h v j (colAt j) fun ax => ?_
  match ax with
  | ⟨0, _⟩ =>
    show (j 0).val = if a = 1 then 0 else (j 0).val
    split
    · have h0 : (j 0).val < a := (j 0).isLt
      omega
    · rfl
  | ⟨1, _⟩ =>
    show 0 = if (1 : Nat) = 1 then 0 else (j 1).val
    rw [if_pos rfl]

/-- A [1, b] row placed on both axes of [a, b] reads, at `j`, the row's entry in `j`'s column. -/
theorem broadcastInDim_row_apply {a b : ℕ} (h : (⟨2, ![1, b]⟩ : Shape).BroadcastsInDim ⟨2, ![a, b]⟩ ![0, 1])
    (v : (⟨2, ![1, b]⟩ : Shape).Idx → α) (j : (⟨2, ![a, b]⟩ : Shape).Idx) :
    broadcastInDim ⟨2, ![a, b]⟩ ![0, 1] h v j = v (rowAt j) := by
  refine broadcastInDim_apply _ h v j (rowAt j) fun ax => ?_
  match ax with
  | ⟨0, _⟩ =>
    show 0 = if (1 : Nat) = 1 then 0 else (j 0).val
    rw [if_pos rfl]
  | ⟨1, _⟩ =>
    show (j 1).val = if b = 1 then 0 else (j 1).val
    split
    · have h1 : (j 1).val < b := (j 1).isLt
      omega
    · rfl

/-- An [a] vector placed on axis 0 of an [a, 1] column reads, at `j`, the vector at `j`'s row. -/
theorem broadcastInDim_keepdims_apply {a : ℕ} (h : (⟨1, ![a]⟩ : Shape).BroadcastsInDim ⟨2, ![a, 1]⟩ ![0])
    (v : (⟨1, ![a]⟩ : Shape).Idx → α) (j : (⟨2, ![a, 1]⟩ : Shape).Idx) :
    broadcastInDim ⟨2, ![a, 1]⟩ ![0] h v j = v (ix1 ⟨(j 0).val, (j 0).isLt⟩) := by
  refine broadcastInDim_apply _ h v j (ix1 ⟨(j 0).val, (j 0).isLt⟩) fun ax => ?_
  match ax with
  | ⟨0, _⟩ =>
    show (j 0).val = if a = 1 then 0 else (j 0).val
    split
    · have h0 : (j 0).val < a := (j 0).isLt
      omega
    · rfl

/-- A [b] vector placed on axis 1 of a [1, b] row reads, at `j`, the vector at `j`'s column. -/
theorem broadcastInDim_rowvec_apply {b : ℕ} (h : (⟨1, ![b]⟩ : Shape).BroadcastsInDim ⟨2, ![1, b]⟩ ![1])
    (v : (⟨1, ![b]⟩ : Shape).Idx → α) (j : (⟨2, ![1, b]⟩ : Shape).Idx) :
    broadcastInDim ⟨2, ![1, b]⟩ ![1] h v j = v (ix1 ⟨(j 1).val, (j 1).isLt⟩) := by
  refine broadcastInDim_apply _ h v j (ix1 ⟨(j 1).val, (j 1).isLt⟩) fun ax => ?_
  match ax with
  | ⟨0, _⟩ =>
    show (j 1).val = if b = 1 then 0 else (j 1).val
    split
    · have h1 : (j 1).val < b := (j 1).isLt
      omega
    · rfl

/-- A [b] vector cast to a [1, b] row reads, at `j`, the vector at `j`'s column. -/
theorem shapeCast_rowvec_apply {b : ℕ} (x : (⟨1, ![b]⟩ : Shape).Idx → α) (h : (⟨1, ![b]⟩ : Shape).ShapeCasts ⟨2, ![1, b]⟩)
    (j : (⟨2, ![1, b]⟩ : Shape).Idx) : shapeCast ⟨2, ![1, b]⟩ x h j = x (ix1 ⟨(j 1).val, (j 1).isLt⟩) :=
  shapeCast_apply x h _ _ (by
    rw [Shape.rowMajor_val_two, Shape.rowMajor_val_one]
    have h0 : (j 0).val < 1 := (j 0).isLt
    show (j 1).val = (j 0).val * b + (j 1).val
    have : (j 0).val = 0 := by omega
    rw [this, Nat.zero_mul, Nat.zero_add])

/-! ## Three layer shapes, entry by entry -/

/-- Rows scaled by a column, then a matrix product: entry (r, c) is the sum over k of (X (r, k) · s (r, 0)) · W (k, c). -/
def scaleDot {M K N : ℕ} (X : (⟨2, ![M, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (X (lhsAt i k) * s (colAt i)) * W (rhsAt i k)

/-- One activated entry: the aggregate scaled by its row's factor, plus the bias of its column, floored at `z`. -/
def actAt {M K : ℕ} (z : EReal) (A : (⟨2, ![M, K]⟩ : Shape).Idx → EReal) (d : (⟨2, ![M, 1]⟩ : Shape).Idx → EReal)
    (b : (⟨2, ![1, K]⟩ : Shape).Idx → EReal) (i : (⟨2, ![M, K]⟩ : Shape).Idx) : EReal :=
  max (A i * d (colAt i) + b (rowAt i)) z

/-- Activated rows scaled by a second column, then a matrix product. -/
def actScaleDot {M K N : ℕ} (z : EReal) (A : (⟨2, ![M, K]⟩ : Shape).Idx → EReal) (d : (⟨2, ![M, 1]⟩ : Shape).Idx → EReal)
    (b : (⟨2, ![1, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (actAt z A d b (lhsAt i k) * s (colAt i)) * W (rhsAt i k)

/-- Activated rows times a matrix, plus one row added to every row. -/
def actDotBias {M K N : ℕ} (z : EReal) (A : (⟨2, ![M, K]⟩ : Shape).Idx → EReal) (d : (⟨2, ![M, 1]⟩ : Shape).Idx → EReal)
    (b : (⟨2, ![1, K]⟩ : Shape).Idx → EReal) (W : (⟨2, ![K, N]⟩ : Shape).Idx → EReal)
    (o : (⟨2, ![1, N]⟩ : Shape).Idx → EReal) : (⟨2, ![M, N]⟩ : Shape).Idx → EReal :=
  fun i => (∑ k : Fin K, actAt z A d b (lhsAt i k) * W (rhsAt i k)) + o (rowAt i)

end Idealize.ShloMosaic.PlainDot

end
-- ==== Proof.RefStages.lean ====
/-
  The reference, stage by stage.

  The reference computes, from the edge lists alone, each node's out- and in-degree factor (the reciprocal square root
  of the degree where it is positive, zero elsewhere) as an 80000×1 column; then three times: scale rows, multiply by a
  weight matrix, send every edge's source row to its destination and sum there, scale by the in-degree factor, add the
  bias, floor at zero; and at the end one more product plus a bias. Each stage is named here as a function of whole
  arrays, the run's composed term is their composition, and each layer is read at an index as a plain sum.
-/
import proofs.«113721_j50302656971357_2_alg».proof.Proof.RefRunP
import proofs.«113721_j50302656971357_2_alg».proof.Proof.LibRowForms

noncomputable section

open scoped BigOperators

namespace Cert.ReferenceIdeal.Stages

open Idealize.ShloMosaic Idealize.ShloMosaic.TcCoe Idealize.SL.Sem Idealize.ShloMosaic.ValueIdx Idealize.ShloMosaic.PlainDot
open Cert.ReferenceIdeal Cert.ReferenceIdeal.Gen

variable {F : FTy → Type} [FloatOps F]

/-- How many edges name each node in the list `idx`: ones scattered and summed at the list's entries. -/
def degree (idx : IVec S1280000 32) : FVec F S80000 .f32 :=
  Host.scatterAdd scatter_S80000_S1280000x1_S1280000_n_0_0_1 (broadcastInDim S80000 ![] bcast_S_S80000 (constant S_ .f32 0x00000000#32)) (broadcastInDim S1280000x1 ![0] bcast_S1280000_S1280000x1_0 idx) (broadcastInDim S1280000 ![] bcast_S_S1280000 (constant S_ .f32 0x3F800000#32))

/-- Where a degree is positive. -/
def maskOf (d : FVec F S80000 .f32) : IVec S80000 1 :=
  cmpf (F := F) .ogt d (broadcastInDim S80000 ![] bcast_S_S80000 (constant S_ .f32 0x00000000#32))

/-- One over the square root of a degree, the degree first raised to at least one. -/
def invOf (d : FVec F S80000 .f32) : FVec F S80000 .f32 :=
  Host.rsqrt (maximumf d (broadcastInDim S80000 ![] bcast_S_S80000 (constant S_ .f32 0x3F800000#32)))

/-- The second vector where the mask is set, the scalar `z` elsewhere. -/
def pick (mk : IVec S80000 1) (iv : FVec F S80000 .f32) (z : FVec F S_ .f32) : FVec F S80000 .f32 :=
  select mk iv (broadcastInDim S80000 ![] bcast_S_S80000 (id z))

/-- The normalising factors of a list: 1 / sqrt (degree) where the degree is positive, zero elsewhere. -/
def norm1 (idx : IVec S1280000 32) : FVec F S80000 .f32 :=
  pick (maskOf (degree (F := F) idx)) (invOf (degree (F := F) idx)) (constant S_ .f32 0x00000000#32)

/-- The same as an 80000×1 column. -/
def norm (idx : IVec S1280000 32) : FVec F S80000x1 .f32 :=
  broadcastInDim S80000x1 ![0] bcast_S80000_S80000x1_0 (norm1 (F := F) idx)

/-- The source list as gather indices: a negative entry counts from the end. -/
def srcIdx (src : IVec S1280000 32) : IVec S1280000x1 32 :=
  (broadcastInDim S1280000x1 ![0] bcast_S1280000_S1280000x1_0 (select (cmpi .slt src (broadcastInDim S1280000 ![] bcast_S_S1280000 (constantI S_ 32 0#32))) (addi src (broadcastInDim S1280000 ![] bcast_S_S1280000 (constantI S_ 32 80000#32))) src))

/-- Every edge carries its source's row to its destination, where the rows are summed. -/
def aggregate (h : FVec F S80000x64 .f32) (src dst : IVec S1280000 32) : FVec F S80000x64 .f32 :=
  Host.scatterAdd scatter_S80000x64_S1280000x1_S1280000x64_1_0_0_1 (broadcastInDim S80000x64 ![] bcast_S_S80000x64 (constant S_ .f32 0x00000000#32)) (broadcastInDim S1280000x1 ![0] bcast_S1280000_S1280000x1_0 dst) (Host.gather gather_S80000x64_S1280000x1_S1280000x64_1_0_n_n_0_1_164 h (srcIdx src))

/-- A bias vector as a one-row matrix. -/
def biasRow (b : FVec F S64 .f32) : FVec F S1x64 .f32 := broadcastInDim S1x64 ![1] bcast_S64_S1x64_1 b
/-- The head's bias vector as a one-row matrix. -/
def headRow (b : FVec F S32 .f32) : FVec F S1x32 .f32 := broadcastInDim S1x32 ![1] bcast_S32_S1x32_1 b

/-- The first transform: rows scaled by the out-degree column, times the weights. -/
def layer0 (x : FVec F S80000x128 .f32) (ns : FVec F S80000x1 .f32) (W : FVec F S128x64 .f32) : FVec F S80000x64 .f32 :=
  Host.dotGeneral dot_S80000x128_S128x64_S80000x64_1_0_0_1_n_n none (mulf x (broadcastInDim S80000x128 ![0, 1] bcast_S80000x1_S80000x128_0_1 ns)) W

/-- The activation: the aggregate scaled by the in-degree column, plus the bias row, floored at zero. -/
def act (agg : FVec F S80000x64 .f32) (nd : FVec F S80000x1 .f32) (brow : FVec F S1x64 .f32) : FVec F S80000x64 .f32 :=
  maximumf (addf (mulf agg (broadcastInDim S80000x64 ![0, 1] bcast_S80000x1_S80000x64_0_1 nd)) (broadcastInDim S80000x64 ![0, 1] bcast_S1x64_S80000x64_0_1 brow)) (broadcastInDim S80000x64 ![] bcast_S_S80000x64 (constant S_ .f32 0x00000000#32))

/-- A middle transform: the activation, rows scaled by the out-degree column, times the weights. -/
def layerMid (agg : FVec F S80000x64 .f32) (nd : FVec F S80000x1 .f32) (brow : FVec F S1x64 .f32) (ns : FVec F S80000x1 .f32)
    (W : FVec F S64x64 .f32) : FVec F S80000x64 .f32 :=
  Host.dotGeneral dot_S80000x64_S64x64_S80000x64_1_0_0_1_n_n none (mulf (act agg nd brow) (broadcastInDim S80000x64 ![0, 1] bcast_S80000x1_S80000x64_0_1 ns)) W

/-- The head: the activation times the output weights, plus the output bias row. -/
def head (agg : FVec F S80000x64 .f32) (nd : FVec F S80000x1 .f32) (brow : FVec F S1x64 .f32) (W : FVec F S64x32 .f32)
    (orow : FVec F S1x32 .f32) : FVec F S80000x32 .f32 :=
  addf (Host.dotGeneral dot_S80000x64_S64x32_S80000x32_1_0_0_1_n_n none (act agg nd brow) W) (broadcastInDim S80000x32 ![0, 1] bcast_S1x32_S80000x32_0_1 orow)

/-- The whole reference as one function of its eleven arguments. -/
def whole (x : FVec F S80000x128 .f32) (src dst : IVec S1280000 32) (W0 : FVec F S128x64 .f32) (b0 : FVec F S64 .f32)
    (W1 : FVec F S64x64 .f32) (b1 : FVec F S64 .f32) (W2 : FVec F S64x64 .f32) (b2 : FVec F S64 .f32)
    (Wo : FVec F S64x32 .f32) (bo : FVec F S32 .f32) : FVec F S80000x32 .f32 :=
  head (aggregate (layerMid (aggregate (layerMid (aggregate (layer0 x (norm src) W0) src dst) (norm dst) (biasRow b0) (norm src) W1) src dst)
    (norm dst) (biasRow b1) (norm src) W2) src dst) (norm dst) (biasRow b2) Wo (headRow bo)

/-- The run's composed term is the composition of the stages. -/
theorem res_eq (m : (ℓ : Loc nD τ sig) → Buf (Elt F) ℓ) (c : Dev nD) :
    Cert.ReferenceIdeal.ValueP.res_main_v126 m c
      = whole (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.ValueP.res_main_v126 whole head layerMid layer0 act aggregate srcIdx norm norm1 pick invOf maskOf degree biasRow headRow
  rfl

/-! ## The three products' operand indices -/

theorem dotR0_l0 (i : S80000x64.Idx) (q : dot_S80000x128_S128x64_S80000x64_1_0_0_1_n_n.contr.Idx) :
    (dot_S80000x128_S128x64_S80000x64_1_0_0_1_n_n.lhsIdx i q 0).val = (i 0).val := by
  unfold DotDims.lhsIdx
  rw [dif_neg (show ¬(0 : Fin S80000x128.rank) ∈ dot_S80000x128_S128x64_S80000x64_1_0_0_1_n_n.lhsBatch by decide), dif_pos (show (0 : Fin S80000x128.rank) ∈ dot_S80000x128_S128x64_S80000x64_1_0_0_1_n_n.lhsNonContracting by decide)]
  rfl
theorem dotR0_l1 (i : S80000x64.Idx) (q : dot_S80000x128_S128x64_S80000x64_1_0_0_1_n_n.contr.Idx) :
    (dot_S80000x128_S128x64_S80000x64_1_0_0_1_n_n.lhsIdx i q 1).val = (q ⟨0, by decide⟩).val :=
  dot_S80000x128_S128x64_S80000x64_1_0_0_1_n_n.lhsIdx_val_of_single rfl i q
theorem dotR0_r0 (i : S80000x64.Idx) (q : dot_S80000x128_S128x64_S80000x64_1_0_0_1_n_n.contr.Idx) :
    (dot_S80000x128_S128x64_S80000x64_1_0_0_1_n_n.rhsIdx i q 0).val = (q ⟨0, by decide⟩).val :=
  dot_S80000x128_S128x64_S80000x64_1_0_0_1_n_n.rhsIdx_val_of_single rfl i q
theorem dotR0_r1 (i : S80000x64.Idx) (q : dot_S80000x128_S128x64_S80000x64_1_0_0_1_n_n.contr.Idx) :
    (dot_S80000x128_S128x64_S80000x64_1_0_0_1_n_n.rhsIdx i q 1).val = (i 1).val := by
  unfold DotDims.rhsIdx
  rw [dif_neg (show ¬(1 : Fin S128x64.rank) ∈ dot_S80000x128_S128x64_S80000x64_1_0_0_1_n_n.rhsBatch by decide), dif_pos (show (1 : Fin S128x64.rank) ∈ dot_S80000x128_S128x64_S80000x64_1_0_0_1_n_n.rhsNonContracting by decide)]
  rfl

theorem dotR1_l0 (i : S80000x64.Idx) (q : dot_S80000x64_S64x64_S80000x64_1_0_0_1_n_n.contr.Idx) :
    (dot_S80000x64_S64x64_S80000x64_1_0_0_1_n_n.lhsIdx i q 0).val = (i 0).val := by
  unfold DotDims.lhsIdx
  rw [dif_neg (show ¬(0 : Fin S80000x64.rank) ∈ dot_S80000x64_S64x64_S80000x64_1_0_0_1_n_n.lhsBatch by decide), dif_pos (show (0 : Fin S80000x64.rank) ∈ dot_S80000x64_S64x64_S80000x64_1_0_0_1_n_n.lhsNonContracting by decide)]
  rfl
theorem dotR1_l1 (i : S80000x64.Idx) (q : dot_S80000x64_S64x64_S80000x64_1_0_0_1_n_n.contr.Idx) :
    (dot_S80000x64_S64x64_S80000x64_1_0_0_1_n_n.lhsIdx i q 1).val = (q ⟨0, by decide⟩).val :=
  dot_S80000x64_S64x64_S80000x64_1_0_0_1_n_n.lhsIdx_val_of_single rfl i q
theorem dotR1_r0 (i : S80000x64.Idx) (q : dot_S80000x64_S64x64_S80000x64_1_0_0_1_n_n.contr.Idx) :
    (dot_S80000x64_S64x64_S80000x64_1_0_0_1_n_n.rhsIdx i q 0).val = (q ⟨0, by decide⟩).val :=
  dot_S80000x64_S64x64_S80000x64_1_0_0_1_n_n.rhsIdx_val_of_single rfl i q
theorem dotR1_r1 (i : S80000x64.Idx) (q : dot_S80000x64_S64x64_S80000x64_1_0_0_1_n_n.contr.Idx) :
    (dot_S80000x64_S64x64_S80000x64_1_0_0_1_n_n.rhsIdx i q 1).val = (i 1).val := by
  unfold DotDims.rhsIdx
  rw [dif_neg (show ¬(1 : Fin S64x64.rank) ∈ dot_S80000x64_S64x64_S80000x64_1_0_0_1_n_n.rhsBatch by decide), dif_pos (show (1 : Fin S64x64.rank) ∈ dot_S80000x64_S64x64_S80000x64_1_0_0_1_n_n.rhsNonContracting by decide)]
  rfl

theorem dotR2_l0 (i : S80000x32.Idx) (q : dot_S80000x64_S64x32_S80000x32_1_0_0_1_n_n.contr.Idx) :
    (dot_S80000x64_S64x32_S80000x32_1_0_0_1_n_n.lhsIdx i q 0).val = (i 0).val := by
  unfold DotDims.lhsIdx
  rw [dif_neg (show ¬(0 : Fin S80000x64.rank) ∈ dot_S80000x64_S64x32_S80000x32_1_0_0_1_n_n.lhsBatch by decide), dif_pos (show (0 : Fin S80000x64.rank) ∈ dot_S80000x64_S64x32_S80000x32_1_0_0_1_n_n.lhsNonContracting by decide)]
  rfl
theorem dotR2_l1 (i : S80000x32.Idx) (q : dot_S80000x64_S64x32_S80000x32_1_0_0_1_n_n.contr.Idx) :
    (dot_S80000x64_S64x32_S80000x32_1_0_0_1_n_n.lhsIdx i q 1).val = (q ⟨0, by decide⟩).val :=
  dot_S80000x64_S64x32_S80000x32_1_0_0_1_n_n.lhsIdx_val_of_single rfl i q
theorem dotR2_r0 (i : S80000x32.Idx) (q : dot_S80000x64_S64x32_S80000x32_1_0_0_1_n_n.contr.Idx) :
    (dot_S80000x64_S64x32_S80000x32_1_0_0_1_n_n.rhsIdx i q 0).val = (q ⟨0, by decide⟩).val :=
  dot_S80000x64_S64x32_S80000x32_1_0_0_1_n_n.rhsIdx_val_of_single rfl i q
theorem dotR2_r1 (i : S80000x32.Idx) (q : dot_S80000x64_S64x32_S80000x32_1_0_0_1_n_n.contr.Idx) :
    (dot_S80000x64_S64x32_S80000x32_1_0_0_1_n_n.rhsIdx i q 1).val = (i 1).val := by
  unfold DotDims.rhsIdx
  rw [dif_neg (show ¬(1 : Fin S64x32.rank) ∈ dot_S80000x64_S64x32_S80000x32_1_0_0_1_n_n.rhsBatch by decide), dif_pos (show (1 : Fin S64x32.rank) ∈ dot_S80000x64_S64x32_S80000x32_1_0_0_1_n_n.rhsNonContracting by decide)]
  rfl

/-! ## Each layer at an index, over the extended reals -/

/-- The first transform, entry by entry. -/
theorem layer0_eq (x : FVec Ideal S80000x128 .f32) (ns : FVec Ideal S80000x1 .f32) (W : FVec Ideal S128x64 .f32) :
    layer0 (F := Ideal) x ns W = scaleDot x ns W := by
  funext i
  unfold layer0 scaleDot
  simp only [Host.dotGeneral]
  rw [Ideal.dotGeneral_apply]
  refine (sum_contr_eq dot_S80000x128_S128x64_S80000x64_1_0_0_1_n_n rfl rfl dotR0_l0 dotR0_l1 dotR0_r0 dotR0_r1 _ W i).trans ?_
  refine Finset.sum_congr rfl fun k _ => ?_
  refine congrArg (· * W (rhsAt i k)) ?_
  refine congrArg (x (lhsAt i k) * ·) ?_
  exact broadcastInDim_col_apply bcast_S80000x1_S80000x128_0_1 ns (lhsAt i k)

/-- The activation, entry by entry. -/
theorem act_apply (agg : FVec Ideal S80000x64 .f32) (nd : FVec Ideal S80000x1 .f32) (brow : FVec Ideal S1x64 .f32) (i : S80000x64.Idx) :
    act (F := Ideal) agg nd brow i = actAt (Ideal.ofBits .f32 0x00000000#32) agg nd brow i := by
  unfold act actAt
  refine congrArg₂ max ?_ rfl
  refine congrArg₂ (· + ·) ?_ ?_
  · refine congrArg (agg i * ·) ?_
    exact broadcastInDim_col_apply bcast_S80000x1_S80000x64_0_1 nd i
  · exact broadcastInDim_row_apply bcast_S1x64_S80000x64_0_1 brow i

/-- A middle transform, entry by entry. -/
theorem layerMid_eq (agg : FVec Ideal S80000x64 .f32) (nd : FVec Ideal S80000x1 .f32) (brow : FVec Ideal S1x64 .f32)
    (ns : FVec Ideal S80000x1 .f32) (W : FVec Ideal S64x64 .f32) :
    layerMid (F := Ideal) agg nd brow ns W = actScaleDot (Ideal.ofBits .f32 0x00000000#32) agg nd brow ns W := by
  funext i
  unfold layerMid actScaleDot
  simp only [Host.dotGeneral]
  rw [Ideal.dotGeneral_apply]
  refine (sum_contr_eq dot_S80000x64_S64x64_S80000x64_1_0_0_1_n_n rfl rfl dotR1_l0 dotR1_l1 dotR1_r0 dotR1_r1 _ W i).trans ?_
  refine Finset.sum_congr rfl fun k _ => ?_
  refine congrArg (· * W (rhsAt i k)) ?_
  refine congrArg₂ (· * ·) (act_apply agg nd brow (lhsAt i k)) ?_
  exact broadcastInDim_col_apply bcast_S80000x1_S80000x64_0_1 ns (lhsAt i k)

/-- The head, entry by entry. -/
theorem head_eq (agg : FVec Ideal S80000x64 .f32) (nd : FVec Ideal S80000x1 .f32) (brow : FVec Ideal S1x64 .f32)
    (W : FVec Ideal S64x32 .f32) (orow : FVec Ideal S1x32 .f32) :
    head (F := Ideal) agg nd brow W orow = actDotBias (Ideal.ofBits .f32 0x00000000#32) agg nd brow W orow := by
  funext i
  unfold head actDotBias
  refine congrArg₂ (· + ·) ?_ ?_
  · simp only [Host.dotGeneral]
    rw [Ideal.dotGeneral_apply]
    refine (sum_contr_eq dot_S80000x64_S64x32_S80000x32_1_0_0_1_n_n rfl rfl dotR2_l0 dotR2_l1 dotR2_r0 dotR2_r1 _ W i).trans ?_
    refine Finset.sum_congr rfl fun k _ => ?_
    exact congrArg (· * W (rhsAt i k)) (act_apply agg nd brow (lhsAt i k))
  · exact broadcastInDim_row_apply bcast_S1x32_S80000x32_0_1 orow i

/-! ## The whole reference over the three layer shapes -/

/-- The reference, with each layer read as its plain sum. -/
theorem whole_eq (x : FVec Ideal S80000x128 .f32) (src dst : IVec S1280000 32) (W0 : FVec Ideal S128x64 .f32) (b0 : FVec Ideal S64 .f32)
    (W1 : FVec Ideal S64x64 .f32) (b1 : FVec Ideal S64 .f32) (W2 : FVec Ideal S64x64 .f32) (b2 : FVec Ideal S64 .f32)
    (Wo : FVec Ideal S64x32 .f32) (bo : FVec Ideal S32 .f32) :
    whole (F := Ideal) x src dst W0 b0 W1 b1 W2 b2 Wo bo
      = actDotBias (Ideal.ofBits .f32 0x00000000#32)
          (aggregate (F := Ideal)
            (actScaleDot (Ideal.ofBits .f32 0x00000000#32)
              (aggregate (F := Ideal)
                (actScaleDot (Ideal.ofBits .f32 0x00000000#32)
                  (aggregate (F := Ideal) (scaleDot x (norm (F := Ideal) src) W0) src dst)
                  (norm (F := Ideal) dst) (biasRow b0) (norm (F := Ideal) src) W1) src dst)
              (norm (F := Ideal) dst) (biasRow b1) (norm (F := Ideal) src) W2) src dst)
          (norm (F := Ideal) dst) (biasRow b2) Wo (headRow bo) := by
  unfold whole
  rw [layer0_eq, layerMid_eq, layerMid_eq, head_eq]

/-- A vector cast to a column is the vector placed on the column's long axis. -/
theorem keepdims_eq (v : FVec Ideal S80000 .f32) (h : S80000.ShapeCasts S80000x1) :
    shapeCast S80000x1 v h = broadcastInDim S80000x1 ![0] bcast_S80000_S80000x1_0 v := by
  funext j
  exact (shapeCast_keepdims_apply v h j).trans (broadcastInDim_keepdims_apply bcast_S80000_S80000x1_0 v j).symm

/-- A bias vector cast to a row is the bias row. -/
theorem biasRow_eq (b : FVec Ideal S64 .f32) (h : S64.ShapeCasts S1x64) : shapeCast S1x64 b h = biasRow (F := Ideal) b := by
  funext j
  exact (shapeCast_rowvec_apply b h j).trans (broadcastInDim_rowvec_apply bcast_S64_S1x64_1 b j).symm

/-- The output bias vector cast to a row is the head's row. -/
theorem headRow_eq (b : FVec Ideal S32 .f32) (h : S32.ShapeCasts S1x32) : shapeCast S1x32 b h = headRow (F := Ideal) b := by
  funext j
  exact (shapeCast_rowvec_apply b h j).trans (broadcastInDim_rowvec_apply bcast_S32_S1x32_1 b j).symm

end Cert.ReferenceIdeal.Stages

end
-- ==== Proof.Region0.lean ====
/-
  The first transform, as one function of whole arrays.

  Every grid point takes 8000 rows of the feature matrix, scales each row by that node's out-degree factor, and
  multiplies by the 128×64 weight matrix. Row r of the result depends on row r of the input only, so the ten blocks
  written back are the ten row bands of ONE 80000×64 array: entry (r, c) is the sum over k of
  (x (r, k) · ns (r, 0)) · w (k, c).
-/
import proofs.«113721_j50302656971357_2_alg».proof.Proof.Gen.KernelIdeal.Frame
import proofs.«113721_j50302656971357_2_alg».proof.Proof.LibRowForms

noncomputable section

open scoped BigOperators

namespace Cert.KernelIdeal.Layers

open Idealize.ShloMosaic Idealize.ShloMosaic.TcCoe Idealize.SL.Sem Idealize.ShloMosaic.ValueIdx Idealize.ShloMosaic.PlainDot
open Cert.KernelIdeal Cert.KernelIdeal.Gen
open Idealize.ShloMosaic.Pipeline (Dat Cfg Window)

/-! ## The block product's operand indices -/

theorem dotA_l0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem dotA_l1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem dotA_r0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem dotA_r1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- The block product into a zero accumulator is the sum over the shared coordinate. -/
theorem matmulA_apply (l : FVec Ideal S8000x128 .f32) (r : FVec Ideal S128x64 .f32) (j : S8000x64.Idx) :
    FloatOps.matmul dot_S8000x128_S128x64_S8000x64_1_0_0_1_n_n none l r (constant S8000x64 .f32 0x00000000#32) j
      = ∑ k : Fin 128, l (lhsAt j k) * r (rhsAt j k) :=
  (Ideal.matmul_constant_zero_apply _ none l r j).trans
    (sum_contr_eq dot_S8000x128_S128x64_S8000x64_1_0_0_1_n_n rfl rfl dotA_l0 dotA_l1 dotA_r0 dotA_r1 l r j)

/-! ## One block's arithmetic -/

/-- What one grid point stores, entry by entry: the scaled rows of its block times the weights. -/
theorem pay0_apply (x0 : FVec Ideal S8000x128 .f32) (x1 : FVec Ideal S8000x1 .f32) (x2 : FVec Ideal S128x64 .f32) (j : S8000x64.Idx) :
    k0_pay1 (F := Ideal) x0 x1 x2 j = scaleDot x0 x1 x2 j := by
  unfold k0_pay1
  refine (matmulA_apply _ x2 j).trans ?_
  unfold scaleDot
  refine Finset.sum_congr rfl fun k _ => ?_
  refine congrArg (· * x2 (rhsAt j k)) ?_
  refine congrArg (x0 (lhsAt j k) * ·) ?_
  refine (broadcastTo_col_apply _ broadcasts_S8000x1_S8000x128 (lhsAt j k)).trans ?_
  rw [shapeCast_self]

/-! ## From the ten blocks to the array -/

theorem hz0 : (![0, 0] : Fin 2 → Nat) = fun _ => 0 := funext fun a => by fin_cases a <;> rfl

/-- The index maps over the grid: the row-blocked windows sit at block (t, 0), the weights at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What point `t` writes back is band `t` of the whole product. -/
theorem flushed0_eq (c : Dev nD) (t : Fin cfg0.N) :
    (dat0 V c).flushed 3 t = ((cfg0.win 3).blk t).view.read (Elt Ideal)
      (scaleDot (V c main_arg0) (V c main_v13) (V c main_arg3)) := by
  show (cfg0.win 3).cut (grid0.coords t) ((dat0 V c).after 3 t) = _
  rw [after0_3]
  unfold out0_3
  rw [View.canon_unit_zero hz0]
  simp only [View.ld_unit_zero (S := S8000x128) hz0, View.ld_unit_zero (S := S8000x1) hz0, View.ld_unit_zero (S := S128x64) hz0]
  obtain ⟨e00, e01, e10, e11, e20, e21, e30, e31⟩ := idx_facts0 t
  funext j
  refine (pay0_apply _ _ _ j).trans ?_
  show scaleDot (iblk0 V c 0 t) (iblk0 V c 1 t) (iblk0 V c 2 t) j
    = scaleDot (V c main_arg0) (V c main_v13) (V c main_arg3) (((cfg0.win 3).blk t).view.emb j)
  unfold scaleDot
  refine Finset.sum_congr rfl fun k _ => ?_
  have h0 : ((cfg0.win 0).blk t).view.emb (lhsAt j k) = lhsAt (((cfg0.win 3).blk t).view.emb j) k := by
    funext a; apply Fin.ext
    match a with
    | ⟨0, _⟩ => show win0_0.index t (0 : Fin 2) * 8000 + 1 * (j 0).val = win0_3.index t (0 : Fin 2) * 8000 + 1 * (j 0).val; omega
    | ⟨1, _⟩ => show win0_0.index t (1 : Fin 2) * 128 + 1 * k.val = k.val; omega
  have h1 : ((cfg0.win 1).blk t).view.emb (colAt j) = colAt (((cfg0.win 3).blk t).view.emb j) := by
    funext a; apply Fin.ext
    match a with
    | ⟨0, _⟩ => show win0_1.index t (0 : Fin 2) * 8000 + 1 * (j 0).val = win0_3.index t (0 : Fin 2) * 8000 + 1 * (j 0).val; omega
    | ⟨1, _⟩ => show win0_1.index t (1 : Fin 2) * 1 + 1 * 0 = 0; omega
  have h2 : ((cfg0.win 2).blk t).view.emb (rhsAt j k) = rhsAt (((cfg0.win 3).blk t).view.emb j) k := by
    funext a; apply Fin.ext
    match a with
    | ⟨0, _⟩ => show win0_2.index t (0 : Fin 2) * 128 + 1 * k.val = k.val; omega
    | ⟨1, _⟩ => show win0_2.index t (1 : Fin 2) * 64 + 1 * (j 1).val = win0_3.index t (1 : Fin 2) * 64 + 1 * (j 1).val; omega
  have e0 : iblk0 V c 0 t (lhsAt j k) = V c main_arg0 (lhsAt (((cfg0.win 3).blk t).view.emb j) k) := congrArg (V c main_arg0) h0
  have e1 : iblk0 V c 1 t (colAt j) = V c main_v13 (colAt (((cfg0.win 3).blk t).view.emb j)) := congrArg (V c main_v13) h1
  have e2 : iblk0 V c 2 t (rhsAt j k) = V c main_arg3 (rhsAt (((cfg0.win 3).blk t).view.emb j) k) := congrArg (V c main_arg3) h2
  exact congrArg₂ (· * ·) (congrArg₂ (· * ·) e0 e1) e2

/-- An index of the output array is in point `t`'s block iff each coordinate is in the block's range. -/
theorem mem_blk0 (t : Fin cfg0.N) (i : S80000x64.Idx) :
    i ∈ ((cfg0.win 3).blk t).view.set ↔ ∀ a : Fin 2, win0_3.index t a * S8000x64.size a ≤ (i a).val ∧ (i a).val < win0_3.index t a * S8000x64.size a + S8000x64.size a := by
  show i ∈ ((View.whole main_v21).slice (win0_3.rect t)).set ↔ _
  rw [View.set_slice_whole, Rect.mem_set_unit]
  exact Iff.rfl

/-- The ten row bands cover the array: row r lies in band r / 8000. -/
theorem cover0 (i : S80000x64.Idx) : ∃ t : Fin cfg0.N, (cfg0.win 3).flush t = true ∧ i ∈ ((cfg0.win 3).blk t).view.set := by
  have hi0 : (i 0).val < 80000 := (i 0).isLt
  have hi1 : (i 1).val < 64 := (i 1).isLt
  have hN : cfg0.N = 10 := N_0
  let t : Fin cfg0.N := ⟨(i 0).val / 8000, by rw [hN]; omega⟩
  obtain ⟨_, _, _, _, _, _, e30, e31⟩ := idx_facts0 t
  have ht : t.val = (i 0).val / 8000 := rfl
  refine ⟨t, flush0_3 t, ?_⟩
  rw [mem_blk0]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 64 ≤ (i 1).val ∧ (i 1).val < win0_3.index t (1 : Fin 2) * 64 + 64; omega

/-- After the region, the output array is the whole product of the arrays the region found. -/
theorem region0_value (c : Dev nD) :
    (dat0 V c).arrAt 3 cfg0.N = scaleDot (V c main_arg0) (V c main_v13) (V c main_arg3) :=
  (dat0 V c).arrAt_eq_of_cover 3 _ (fun t _ => flushed0_eq V c t) cover0

end

end Cert.KernelIdeal.Layers

end
-- ==== Proof.Region1.lean ====
/-
  The second transform, as one function of whole arrays.

  Every grid point takes 8000 rows of the aggregated features, scales each row by that node's in-degree factor, adds the
  bias row, floors at zero, scales by the out-degree factor and multiplies by the 64×64 weight matrix. Row r of the
  result depends on row r of the inputs only, so the ten blocks written back are the ten row bands of ONE 80000×64 array.
-/
import proofs.«113721_j50302656971357_2_alg».proof.Proof.Gen.KernelIdeal.Frame
import proofs.«113721_j50302656971357_2_alg».proof.Proof.LibRowForms

noncomputable section

open scoped BigOperators

namespace Cert.KernelIdeal.Layers

open Idealize.ShloMosaic Idealize.ShloMosaic.TcCoe Idealize.SL.Sem Idealize.ShloMosaic.ValueIdx Idealize.ShloMosaic.PlainDot
open Cert.KernelIdeal Cert.KernelIdeal.Gen
open Idealize.ShloMosaic.Pipeline (Dat Cfg Window)

/-! ## The block product's operand indices -/

theorem dotB_l0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem dotB_l1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem dotB_r0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem dotB_r1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The block product into a zero accumulator is the sum over the shared coordinate. -/
theorem matmulB_apply (l : FVec Ideal S8000x64 .f32) (r : FVec Ideal S64x64 .f32) (j : S8000x64.Idx) :
    FloatOps.matmul dot_S8000x64_S64x64_S8000x64_1_0_0_1_n_n none l r (constant S8000x64 .f32 0x00000000#32) j
      = ∑ k : Fin 64, l (lhsAt j k) * r (rhsAt j k) :=
  (Ideal.matmul_constant_zero_apply _ none l r j).trans
    (sum_contr_eq dot_S8000x64_S64x64_S8000x64_1_0_0_1_n_n rfl rfl dotB_l0 dotB_l1 dotB_r0 dotB_r1 l r j)

/-- One activated entry of a block: the aggregate scaled by its row's factor, plus the bias of its column, floored at zero. -/
theorem actBlock_apply (x0 : FVec Ideal S8000x64 .f32) (x1 : FVec Ideal S8000x1 .f32) (x2 : FVec Ideal S1x64 .f32) (i : S8000x64.Idx) :
    maximumf (addf (mulf (shapeCast S8000x64 x0 shapeCasts_S8000x64_S8000x64)
        (broadcastTo S8000x64 (shapeCast S8000x1 x1 shapeCasts_S8000x1_S8000x1) broadcasts_S8000x1_S8000x64))
        (broadcastTo S8000x64 (shapeCast S1x64 x2 shapeCasts_S1x64_S1x64) broadcasts_S1x64_S8000x64))
      (broadcast S8000x64 (Scalar.ofBits (F := Ideal) .f32 0x00000000#32)) i
      = actAt (Ideal.ofBits .f32 0x00000000#32) x0 x1 x2 i := by
  unfold actAt
  refine congrArg₂ max ?_ rfl
  refine congrArg₂ (· + ·) ?_ ?_
  · refine congrArg₂ (· * ·) ?_ ?_
    · exact congrFun (shapeCast_self x0 _) i
    · exact (broadcastTo_col_apply _ broadcasts_S8000x1_S8000x64 i).trans (congrFun (shapeCast_self x1 _) _)
  · exact (broadcastTo_row_apply _ broadcasts_S1x64_S8000x64 i).trans (congrFun (shapeCast_self x2 _) _)

/-! ## One block's arithmetic -/

/-- What one grid point stores, entry by entry. -/
theorem pay1_apply (x0 : FVec Ideal S8000x64 .f32) (x1 : FVec Ideal S8000x1 .f32) (x2 : FVec Ideal S1x64 .f32)
    (x3 : FVec Ideal S8000x1 .f32) (x4 : FVec Ideal S64x64 .f32) (j : S8000x64.Idx) :
    k1_pay1 (F := Ideal) x0 x1 x2 x3 x4 j = actScaleDot (Ideal.ofBits .f32 0x00000000#32) x0 x1 x2 x3 x4 j := by
  unfold k1_pay1
  refine (matmulB_apply _ x4 j).trans ?_
  unfold actScaleDot
  refine Finset.sum_congr rfl fun k _ => ?_
  refine congrArg (· * x4 (rhsAt j k)) ?_
  refine congrArg₂ (· * ·) (actBlock_apply x0 x1 x2 (lhsAt j k)) ?_
  exact (broadcastTo_col_apply _ broadcasts_S8000x1_S8000x64 (lhsAt j k)).trans (congrFun (shapeCast_self x3 _) _)

/-! ## From the ten blocks to the array -/

theorem hz1 : (![0, 0] : Fin 2 → Nat) = fun _ => 0 := funext fun a => by fin_cases a <;> rfl

/-- The index maps over the grid: the row-blocked windows sit at block (t, 0), the bias row and the weights at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- What point `t` writes back is band `t` of the whole transform. -/
theorem flushed1_eq (c : Dev nD) (t : Fin cfg1.N) :
    (dat1 V c).flushed 5 t = ((cfg1.win 5).blk t).view.read (Elt Ideal)
      (actScaleDot (Ideal.ofBits .f32 0x00000000#32) (V c main_v32) (V c main_v20) (V c main_v33) (V c main_v13) (V c main_arg5)) := by
  show (cfg1.win 5).cut (grid1.coords t) ((dat1 V c).after 5 t) = _
  rw [after1_5]
  unfold out1_5
  rw [View.canon_unit_zero hz1]
  simp only [View.ld_unit_zero (S := S8000x64) hz1, View.ld_unit_zero (S := S8000x1) hz1, View.ld_unit_zero (S := S1x64) hz1, View.ld_unit_zero (S := S64x64) hz1]
  obtain ⟨e00, e01, e10, e11, e20, e21, e30, e31, e40, e41, e50, e51⟩ := idx_facts1 t
  funext j
  refine (pay1_apply _ _ _ _ _ j).trans ?_
  show actScaleDot (Ideal.ofBits .f32 0x00000000#32) (iblk1 V c 0 t) (iblk1 V c 1 t) (iblk1 V c 2 t) (iblk1 V c 3 t) (iblk1 V c 4 t) j
    = actScaleDot (Ideal.ofBits .f32 0x00000000#32) (V c main_v32) (V c main_v20) (V c main_v33) (V c main_v13) (V c main_arg5) (((cfg1.win 5).blk t).view.emb j)
  unfold actScaleDot
  refine Finset.sum_congr rfl fun k _ => ?_
  have h0 : ((cfg1.win 0).blk t).view.emb (lhsAt j k) = lhsAt (((cfg1.win 5).blk t).view.emb j) k := by
    funext a; apply Fin.ext
    match a with
    | ⟨0, _⟩ => show win1_0.index t (0 : Fin 2) * 8000 + 1 * (j 0).val = win1_5.index t (0 : Fin 2) * 8000 + 1 * (j 0).val; omega
    | ⟨1, _⟩ => show win1_0.index t (1 : Fin 2) * 64 + 1 * k.val = k.val; omega
  have h1 : ((cfg1.win 1).blk t).view.emb (colAt (lhsAt j k)) = colAt (lhsAt (((cfg1.win 5).blk t).view.emb j) k) := by
    funext a; apply Fin.ext
    match a with
    | ⟨0, _⟩ => show win1_1.index t (0 : Fin 2) * 8000 + 1 * (j 0).val = win1_5.index t (0 : Fin 2) * 8000 + 1 * (j 0).val; omega
    | ⟨1, _⟩ => show win1_1.index t (1 : Fin 2) * 1 + 1 * 0 = 0; omega
  have h2 : ((cfg1.win 2).blk t).view.emb (rowAt (lhsAt j k)) = rowAt (lhsAt (((cfg1.win 5).blk t).view.emb j) k) := by
    funext a; apply Fin.ext
    match a with
    | ⟨0, _⟩ => show win1_2.index t (0 : Fin 2) * 1 + 1 * 0 = 0; omega
    | ⟨1, _⟩ => show win1_2.index t (1 : Fin 2) * 64 + 1 * k.val = k.val; omega
  have h3 : ((cfg1.win 3).blk t).view.emb (colAt j) = colAt (((cfg1.win 5).blk t).view.emb j) := by
    funext a; apply Fin.ext
    match a with
    | ⟨0, _⟩ => show win1_3.index t (0 : Fin 2) * 8000 + 1 * (j 0).val = win1_5.index t (0 : Fin 2) * 8000 + 1 * (j 0).val; omega
    | ⟨1, _⟩ => show win1_3.index t (1 : Fin 2) * 1 + 1 * 0 = 0; omega
  have h4 : ((cfg1.win 4).blk t).view.emb (rhsAt j k) = rhsAt (((cfg1.win 5).blk t).view.emb j) k := by
    funext a; apply Fin.ext
    match a with
    | ⟨0, _⟩ => show win1_4.index t (0 : Fin 2) * 64 + 1 * k.val = k.val; omega
    | ⟨1, _⟩ => show win1_4.index t (1 : Fin 2) * 64 + 1 * (j 1).val = win1_5.index t (1 : Fin 2) * 64 + 1 * (j 1).val; omega
  have e0 : iblk1 V c 0 t (lhsAt j k) = V c main_v32 (lhsAt (((cfg1.win 5).blk t).view.emb j) k) := congrArg (V c main_v32) h0
  have e1 : iblk1 V c 1 t (colAt (lhsAt j k)) = V c main_v20 (colAt (lhsAt (((cfg1.win 5).blk t).view.emb j) k)) := congrArg (V c main_v20) h1
  have e2 : iblk1 V c 2 t (rowAt (lhsAt j k)) = V c main_v33 (rowAt (lhsAt (((cfg1.win 5).blk t).view.emb j) k)) := congrArg (V c main_v33) h2
  have e3 : iblk1 V c 3 t (colAt j) = V c main_v13 (colAt (((cfg1.win 5).blk t).view.emb j)) := congrArg (V c main_v13) h3
  have e4 : iblk1 V c 4 t (rhsAt j k) = V c main_arg5 (rhsAt (((cfg1.win 5).blk t).view.emb j) k) := congrArg (V c main_arg5) h4
  refine congrArg₂ (· * ·) (congrArg₂ (· * ·) ?_ e3) e4
  unfold actAt
  exact congrArg₂ max (congrArg₂ (· + ·) (congrArg₂ (· * ·) e0 e1) e2) rfl

/-- An index of the output array is in point `t`'s block iff each coordinate is in the block's range. -/
theorem mem_blk1 (t : Fin cfg1.N) (i : S80000x64.Idx) :
    i ∈ ((cfg1.win 5).blk t).view.set ↔ ∀ a : Fin 2, win1_5.index t a * S8000x64.size a ≤ (i a).val ∧ (i a).val < win1_5.index t a * S8000x64.size a + S8000x64.size a := by
  show i ∈ ((View.whole main_v34).slice (win1_5.rect t)).set ↔ _
  rw [View.set_slice_whole, Rect.mem_set_unit]
  exact Iff.rfl

/-- The ten row bands cover the array: row r lies in band r / 8000. -/
theorem cover1 (i : S80000x64.Idx) : ∃ t : Fin cfg1.N, (cfg1.win 5).flush t = true ∧ i ∈ ((cfg1.win 5).blk t).view.set := by
  have hi0 : (i 0).val < 80000 := (i 0).isLt
  have hi1 : (i 1).val < 64 := (i 1).isLt
  have hN : cfg1.N = 10 := N_1
  let t : Fin cfg1.N := ⟨(i 0).val / 8000, by rw [hN]; omega⟩
  obtain ⟨_, _, _, _, _, _, _, _, _, _, e50, e51⟩ := idx_facts1 t
  have ht : t.val = (i 0).val / 8000 := rfl
  refine ⟨t, flush1_5 t, ?_⟩
  rw [mem_blk1]
  intro a
  match a with
  | ⟨0, _⟩ => show win1_5.index t (0 : Fin 2) * 8000 ≤ (i 0).val ∧ (i 0).val < win1_5.index t (0 : Fin 2) * 8000 + 8000; omega
  | ⟨1, _⟩ => show win1_5.index t (1 : Fin 2) * 64 ≤ (i 1).val ∧ (i 1).val < win1_5.index t (1 : Fin 2) * 64 + 64; omega

/-- After the region, the output array is the whole transform of the arrays the region found. -/
theorem region1_value (c : Dev nD) :
    (dat1 V c).arrAt 5 cfg1.N = actScaleDot (Ideal.ofBits .f32 0x00000000#32) (V c main_v32) (V c main_v20) (V c main_v33) (V c main_v13) (V c main_arg5) :=
  (dat1 V c).arrAt_eq_of_cover 5 _ (fun t _ => flushed1_eq V c t) cover1

end

end Cert.KernelIdeal.Layers

end
-- ==== Proof.Region2.lean ====
/-
  The third transform, as one function of whole arrays.

  Every grid point takes 8000 rows of the aggregated features, scales each row by that node's in-degree factor, adds the
  bias row, floors at zero, scales by the out-degree factor and multiplies by the 64×64 weight matrix. Row r of the
  result depends on row r of the inputs only, so the ten blocks written back are the ten row bands of ONE 80000×64 array.
-/
import proofs.«113721_j50302656971357_2_alg».proof.Proof.Gen.KernelIdeal.Frame
import proofs.«113721_j50302656971357_2_alg».proof.Proof.LibRowForms
import proofs.«113721_j50302656971357_2_alg».proof.Proof.Region1

noncomputable section

open scoped BigOperators

namespace Cert.KernelIdeal.Layers

open Idealize.ShloMosaic Idealize.ShloMosaic.TcCoe Idealize.SL.Sem Idealize.ShloMosaic.ValueIdx Idealize.ShloMosaic.PlainDot
open Cert.KernelIdeal Cert.KernelIdeal.Gen
open Idealize.ShloMosaic.Pipeline (Dat Cfg Window)

/-! ## One block's arithmetic -/

/-- What one grid point stores, entry by entry. -/
theorem pay2_apply (x0 : FVec Ideal S8000x64 .f32) (x1 : FVec Ideal S8000x1 .f32) (x2 : FVec Ideal S1x64 .f32)
    (x3 : FVec Ideal S8000x1 .f32) (x4 : FVec Ideal S64x64 .f32) (j : S8000x64.Idx) :
    k2_pay1 (F := Ideal) x0 x1 x2 x3 x4 j = actScaleDot (Ideal.ofBits .f32 0x00000000#32) x0 x1 x2 x3 x4 j := by
  unfold k2_pay1
  refine (matmulB_apply _ x4 j).trans ?_
  unfold actScaleDot
  refine Finset.sum_congr rfl fun k _ => ?_
  refine congrArg (· * x4 (rhsAt j k)) ?_
  refine congrArg₂ (· * ·) (actBlock_apply x0 x1 x2 (lhsAt j k)) ?_
  exact (broadcastTo_col_apply _ broadcasts_S8000x1_S8000x64 (lhsAt j k)).trans (congrFun (shapeCast_self x3 _) _)

/-! ## From the ten blocks to the array -/

theorem hz2 : (![0, 0] : Fin 2 → Nat) = fun _ => 0 := funext fun a => by fin_cases a <;> rfl

/-- The index maps over the grid: the row-blocked windows sit at block (t, 0), the bias row and the weights at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b))

/-- What point `t` writes back is band `t` of the whole transform. -/
theorem flushed2_eq (c : Dev nD) (t : Fin cfg2.N) :
    (dat2 V c).flushed 5 t = ((cfg2.win 5).blk t).view.read (Elt Ideal)
      (actScaleDot (Ideal.ofBits .f32 0x00000000#32) (V c main_v45) (V c main_v20) (V c main_v46) (V c main_v13) (V c main_arg7)) := by
  show (cfg2.win 5).cut (grid2.coords t) ((dat2 V c).after 5 t) = _
  rw [after2_5]
  unfold out2_5
  rw [View.canon_unit_zero hz2]
  simp only [View.ld_unit_zero (S := S8000x64) hz2, View.ld_unit_zero (S := S8000x1) hz2, View.ld_unit_zero (S := S1x64) hz2, View.ld_unit_zero (S := S64x64) hz2]
  obtain ⟨e00, e01, e10, e11, e20, e21, e30, e31, e40, e41, e50, e51⟩ := idx_facts2 t
  funext j
  refine (pay2_apply _ _ _ _ _ j).trans ?_
  show actScaleDot (Ideal.ofBits .f32 0x00000000#32) (iblk2 V c 0 t) (iblk2 V c 1 t) (iblk2 V c 2 t) (iblk2 V c 3 t) (iblk2 V c 4 t) j
    = actScaleDot (Ideal.ofBits .f32 0x00000000#32) (V c main_v45) (V c main_v20) (V c main_v46) (V c main_v13) (V c main_arg7) (((cfg2.win 5).blk t).view.emb j)
  unfold actScaleDot
  refine Finset.sum_congr rfl fun k _ => ?_
  have h0 : ((cfg2.win 0).blk t).view.emb (lhsAt j k) = lhsAt (((cfg2.win 5).blk t).view.emb j) k := by
    funext a; apply Fin.ext
    match a with
    | ⟨0, _⟩ => show win2_0.index t (0 : Fin 2) * 8000 + 1 * (j 0).val = win2_5.index t (0 : Fin 2) * 8000 + 1 * (j 0).val; omega
    | ⟨1, _⟩ => show win2_0.index t (1 : Fin 2) * 64 + 1 * k.val = k.val; omega
  have h1 : ((cfg2.win 1).blk t).view.emb (colAt (lhsAt j k)) = colAt (lhsAt (((cfg2.win 5).blk t).view.emb j) k) := by
    funext a; apply Fin.ext
    match a with
    | ⟨0, _⟩ => show win2_1.index t (0 : Fin 2) * 8000 + 1 * (j 0).val = win2_5.index t (0 : Fin 2) * 8000 + 1 * (j 0).val; omega
    | ⟨1, _⟩ => show win2_1.index t (1 : Fin 2) * 1 + 1 * 0 = 0; omega
  have h2 : ((cfg2.win 2).blk t).view.emb (rowAt (lhsAt j k)) = rowAt (lhsAt (((cfg2.win 5).blk t).view.emb j) k) := by
    funext a; apply Fin.ext
    match a with
    | ⟨0, _⟩ => show win2_2.index t (0 : Fin 2) * 1 + 1 * 0 = 0; omega
    | ⟨1, _⟩ => show win2_2.index t (1 : Fin 2) * 64 + 1 * k.val = k.val; omega
  have h3 : ((cfg2.win 3).blk t).view.emb (colAt j) = colAt (((cfg2.win 5).blk t).view.emb j) := by
    funext a; apply Fin.ext
    match a with
    | ⟨0, _⟩ => show win2_3.index t (0 : Fin 2) * 8000 + 1 * (j 0).val = win2_5.index t (0 : Fin 2) * 8000 + 1 * (j 0).val; omega
    | ⟨1, _⟩ => show win2_3.index t (1 : Fin 2) * 1 + 1 * 0 = 0; omega
  have h4 : ((cfg2.win 4).blk t).view.emb (rhsAt j k) = rhsAt (((cfg2.win 5).blk t).view.emb j) k := by
    funext a; apply Fin.ext
    match a with
    | ⟨0, _⟩ => show win2_4.index t (0 : Fin 2) * 64 + 1 * k.val = k.val; omega
    | ⟨1, _⟩ => show win2_4.index t (1 : Fin 2) * 64 + 1 * (j 1).val = win2_5.index t (1 : Fin 2) * 64 + 1 * (j 1).val; omega
  have e0 : iblk2 V c 0 t (lhsAt j k) = V c main_v45 (lhsAt (((cfg2.win 5).blk t).view.emb j) k) := congrArg (V c main_v45) h0
  have e1 : iblk2 V c 1 t (colAt (lhsAt j k)) = V c main_v20 (colAt (lhsAt (((cfg2.win 5).blk t).view.emb j) k)) := congrArg (V c main_v20) h1
  have e2 : iblk2 V c 2 t (rowAt (lhsAt j k)) = V c main_v46 (rowAt (lhsAt (((cfg2.win 5).blk t).view.emb j) k)) := congrArg (V c main_v46) h2
  have e3 : iblk2 V c 3 t (colAt j) = V c main_v13 (colAt (((cfg2.win 5).blk t).view.emb j)) := congrArg (V c main_v13) h3
  have e4 : iblk2 V c 4 t (rhsAt j k) = V c main_arg7 (rhsAt (((cfg2.win 5).blk t).view.emb j) k) := congrArg (V c main_arg7) h4
  refine congrArg₂ (· * ·) (congrArg₂ (· * ·) ?_ e3) e4
  unfold actAt
  exact congrArg₂ max (congrArg₂ (· + ·) (congrArg₂ (· * ·) e0 e1) e2) rfl

/-- An index of the output array is in point `t`'s block iff each coordinate is in the block's range. -/
theorem mem_blk2 (t : Fin cfg2.N) (i : S80000x64.Idx) :
    i ∈ ((cfg2.win 5).blk t).view.set ↔ ∀ a : Fin 2, win2_5.index t a * S8000x64.size a ≤ (i a).val ∧ (i a).val < win2_5.index t a * S8000x64.size a + S8000x64.size a := by
  show i ∈ ((View.whole main_v47).slice (win2_5.rect t)).set ↔ _
  rw [View.set_slice_whole, Rect.mem_set_unit]
  exact Iff.rfl

/-- The ten row bands cover the array: row r lies in band r / 8000. -/
theorem cover2 (i : S80000x64.Idx) : ∃ t : Fin cfg2.N, (cfg2.win 5).flush t = true ∧ i ∈ ((cfg2.win 5).blk t).view.set := by
  have hi0 : (i 0).val < 80000 := (i 0).isLt
  have hi1 : (i 1).val < 64 := (i 1).isLt
  have hN : cfg2.N = 10 := N_2
  let t : Fin cfg2.N := ⟨(i 0).val / 8000, by rw [hN]; omega⟩
  obtain ⟨_, _, _, _, _, _, _, _, _, _, e50, e51⟩ := idx_facts2 t
  have ht : t.val = (i 0).val / 8000 := rfl
  refine ⟨t, flush2_5 t, ?_⟩
  rw [mem_blk2]
  intro a
  match a with
  | ⟨0, _⟩ => show win2_5.index t (0 : Fin 2) * 8000 ≤ (i 0).val ∧ (i 0).val < win2_5.index t (0 : Fin 2) * 8000 + 8000; omega
  | ⟨1, _⟩ => show win2_5.index t (1 : Fin 2) * 64 ≤ (i 1).val ∧ (i 1).val < win2_5.index t (1 : Fin 2) * 64 + 64; omega

/-- After the region, the output array is the whole transform of the arrays the region found. -/
theorem region2_value (c : Dev nD) :
    (dat2 V c).arrAt 5 cfg2.N = actScaleDot (Ideal.ofBits .f32 0x00000000#32) (V c main_v45) (V c main_v20) (V c main_v46) (V c main_v13) (V c main_arg7) :=
  (dat2 V c).arrAt_eq_of_cover 5 _ (fun t _ => flushed2_eq V c t) cover2

end

end Cert.KernelIdeal.Layers

end
-- ==== Proof.Region3.lean ====
/-
  The head, as one function of whole arrays.

  Every grid point takes 8000 rows of the last aggregate, scales each row by that node's in-degree factor, adds the bias
  row, floors at zero, multiplies by the 64×32 output weights and adds the output bias row. Row r of the result depends
  on row r of the inputs only, so the ten blocks written back are the ten row bands of ONE 80000×32 array.
-/
import proofs.«113721_j50302656971357_2_alg».proof.Proof.Gen.KernelIdeal.Frame
import proofs.«113721_j50302656971357_2_alg».proof.Proof.LibRowForms
import proofs.«113721_j50302656971357_2_alg».proof.Proof.Region1

noncomputable section

open scoped BigOperators

namespace Cert.KernelIdeal.Layers

open Idealize.ShloMosaic Idealize.ShloMosaic.TcCoe Idealize.SL.Sem Idealize.ShloMosaic.ValueIdx Idealize.ShloMosaic.PlainDot
open Cert.KernelIdeal Cert.KernelIdeal.Gen
open Idealize.ShloMosaic.Pipeline (Dat Cfg Window)

/-! ## The block product's operand indices -/

theorem dotC_l0 (i : S8000x32.Idx) (q : dot_S8000x64_S64x32_S8000x32_1_0_0_1_n_n.contr.Idx) :
    (dot_S8000x64_S64x32_S8000x32_1_0_0_1_n_n.lhsIdx i q 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl
theorem dotC_l1 (i : S8000x32.Idx) (q : dot_S8000x64_S64x32_S8000x32_1_0_0_1_n_n.contr.Idx) :
    (dot_S8000x64_S64x32_S8000x32_1_0_0_1_n_n.lhsIdx i q 1).val = (q ⟨0, by decide⟩).val :=
  dot_S8000x64_S64x32_S8000x32_1_0_0_1_n_n.lhsIdx_val_of_single rfl i q
theorem dotC_r0 (i : S8000x32.Idx) (q : dot_S8000x64_S64x32_S8000x32_1_0_0_1_n_n.contr.Idx) :
    (dot_S8000x64_S64x32_S8000x32_1_0_0_1_n_n.rhsIdx i q 0).val = (q ⟨0, by decide⟩).val :=
  dot_S8000x64_S64x32_S8000x32_1_0_0_1_n_n.rhsIdx_val_of_single rfl i q
theorem dotC_r1 (i : S8000x32.Idx) (q : dot_S8000x64_S64x32_S8000x32_1_0_0_1_n_n.contr.Idx) :
    (dot_S8000x64_S64x32_S8000x32_1_0_0_1_n_n.rhsIdx i q 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl

/-- The block product into a zero accumulator is the sum over the shared coordinate. -/
theorem matmulC_apply (l : FVec Ideal S8000x64 .f32) (r : FVec Ideal S64x32 .f32) (j : S8000x32.Idx) :
    FloatOps.matmul dot_S8000x64_S64x32_S8000x32_1_0_0_1_n_n none l r (constant S8000x32 .f32 0x00000000#32) j
      = ∑ k : Fin 64, l (lhsAt j k) * r (rhsAt j k) :=
  (Ideal.matmul_constant_zero_apply _ none l r j).trans
    (sum_contr_eq dot_S8000x64_S64x32_S8000x32_1_0_0_1_n_n rfl rfl dotC_l0 dotC_l1 dotC_r0 dotC_r1 l r j)

/-! ## One block's arithmetic -/

/-- What one grid point stores, entry by entry. -/
theorem pay3_apply (x0 : FVec Ideal S8000x64 .f32) (x1 : FVec Ideal S8000x1 .f32) (x2 : FVec Ideal S1x64 .f32)
    (x3 : FVec Ideal S64x32 .f32) (x4 : FVec Ideal S1x32 .f32) (j : S8000x32.Idx) :
    k3_pay1 (F := Ideal) x0 x1 x2 x3 x4 j = actDotBias (Ideal.ofBits .f32 0x00000000#32) x0 x1 x2 x3 x4 j := by
  unfold k3_pay1 actDotBias
  refine congrArg₂ (· + ·) ?_ ?_
  · refine (matmulC_apply _ x3 j).trans ?_
    refine Finset.sum_congr rfl fun k _ => ?_
    exact congrArg (· * x3 (rhsAt j k)) (actBlock_apply x0 x1 x2 (lhsAt j k))
  · exact (broadcastTo_row_apply _ broadcasts_S1x32_S8000x32 j).trans (congrFun (shapeCast_self x4 _) _)

/-! ## From the ten blocks to the array -/

theorem hz3 : (![0, 0] : Fin 2 → Nat) = fun _ => 0 := funext fun a => by fin_cases a <;> rfl

/-- The index maps over the grid: the row-blocked windows sit at block (t, 0), the rows and the weights at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

section
variable (V : (c : Dev nD) → (b : Ref sig .tc) → Buf (Elt Ideal) ((c : Thread nD τ).loc b))

/-- What point `t` writes back is band `t` of the whole head. -/
theorem flushed3_eq (c : Dev nD) (t : Fin cfg3.N) :
    (dat3 V c).flushed 5 t = ((cfg3.win 5).blk t).view.read (Elt Ideal)
      (actDotBias (Ideal.ofBits .f32 0x00000000#32) (V c main_v58) (V c main_v20) (V c main_v59) (V c main_arg9) (V c main_v60)) := by
  show (cfg3.win 5).cut (grid3.coords t) ((dat3 V c).after 5 t) = _
  rw [after3_5]
  unfold out3_5
  rw [View.canon_unit_zero hz3]
  simp only [View.ld_unit_zero (S := S8000x64) hz3, View.ld_unit_zero (S := S8000x1) hz3, View.ld_unit_zero (S := S1x64) hz3, View.ld_unit_zero (S := S64x32) hz3, View.ld_unit_zero (S := S1x32) hz3]
  obtain ⟨e00, e01, e10, e11, e20, e21, e30, e31, e40, e41, e50, e51⟩ := idx_facts3 t
  funext j
  refine (pay3_apply _ _ _ _ _ j).trans ?_
  show actDotBias (Ideal.ofBits .f32 0x00000000#32) (iblk3 V c 0 t) (iblk3 V c 1 t) (iblk3 V c 2 t) (iblk3 V c 3 t) (iblk3 V c 4 t) j
    = actDotBias (Ideal.ofBits .f32 0x00000000#32) (V c main_v58) (V c main_v20) (V c main_v59) (V c main_arg9) (V c main_v60) (((cfg3.win 5).blk t).view.emb j)
  unfold actDotBias
  have h4 : ((cfg3.win 4).blk t).view.emb (rowAt j) = rowAt (((cfg3.win 5).blk t).view.emb j) := by
    funext a; apply Fin.ext
    match a with
    | ⟨0, _⟩ => show win3_4.index t (0 : Fin 2) * 1 + 1 * 0 = 0; omega
    | ⟨1, _⟩ => show win3_4.index t (1 : Fin 2) * 32 + 1 * (j 1).val = win3_5.index t (1 : Fin 2) * 32 + 1 * (j 1).val; omega
  have e4 : iblk3 V c 4 t (rowAt j) = V c main_v60 (rowAt (((cfg3.win 5).blk t).view.emb j)) := congrArg (V c main_v60) h4
  refine congrArg₂ (· + ·) (Finset.sum_congr rfl fun k _ => ?_) e4
  have h0 : ((cfg3.win 0).blk t).view.emb (lhsAt j k) = lhsAt (((cfg3.win 5).blk t).view.emb j) k := by
    funext a; apply Fin.ext
    match a with
    | ⟨0, _⟩ => show win3_0.index t (0 : Fin 2) * 8000 + 1 * (j 0).val = win3_5.index t (0 : Fin 2) * 8000 + 1 * (j 0).val; omega
    | ⟨1, _⟩ => show win3_0.index t (1 : Fin 2) * 64 + 1 * k.val = k.val; omega
  have h1 : ((cfg3.win 1).blk t).view.emb (colAt (lhsAt j k)) = colAt (lhsAt (((cfg3.win 5).blk t).view.emb j) k) := by
    funext a; apply Fin.ext
    match a with
    | ⟨0, _⟩ => show win3_1.index t (0 : Fin 2) * 8000 + 1 * (j 0).val = win3_5.index t (0 : Fin 2) * 8000 + 1 * (j 0).val; omega
    | ⟨1, _⟩ => show win3_1.index t (1 : Fin 2) * 1 + 1 * 0 = 0; omega
  have h2 : ((cfg3.win 2).blk t).view.emb (rowAt (lhsAt j k)) = rowAt (lhsAt (((cfg3.win 5).blk t).view.emb j) k) := by
    funext a; apply Fin.ext
    match a with
    | ⟨0, _⟩ => show win3_2.index t (0 : Fin 2) * 1 + 1 * 0 = 0; omega
    | ⟨1, _⟩ => show win3_2.index t (1 : Fin 2) * 64 + 1 * k.val = k.val; omega
  have h3 : ((cfg3.win 3).blk t).view.emb (rhsAt j k) = rhsAt (((cfg3.win 5).blk t).view.emb j) k := by
    funext a; apply Fin.ext
    match a with
    | ⟨0, _⟩ => show win3_3.index t (0 : Fin 2) * 64 + 1 * k.val = k.val; omega
    | ⟨1, _⟩ => show win3_3.index t (1 : Fin 2) * 32 + 1 * (j 1).val = win3_5.index t (1 : Fin 2) * 32 + 1 * (j 1).val; omega
  have e0 : iblk3 V c 0 t (lhsAt j k) = V c main_v58 (lhsAt (((cfg3.win 5).blk t).view.emb j) k) := congrArg (V c main_v58) h0
  have e1 : iblk3 V c 1 t (colAt (lhsAt j k)) = V c main_v20 (colAt (lhsAt (((cfg3.win 5).blk t).view.emb j) k)) := congrArg (V c main_v20) h1
  have e2 : iblk3 V c 2 t (rowAt (lhsAt j k)) = V c main_v59 (rowAt (lhsAt (((cfg3.win 5).blk t).view.emb j) k)) := congrArg (V c main_v59) h2
  have e3 : iblk3 V c 3 t (rhsAt j k) = V c main_arg9 (rhsAt (((cfg3.win 5).blk t).view.emb j) k) := congrArg (V c main_arg9) h3
  refine congrArg₂ (· * ·) ?_ e3
  unfold actAt
  exact congrArg₂ max (congrArg₂ (· + ·) (congrArg₂ (· * ·) e0 e1) e2) rfl

/-- An index of the output array is in point `t`'s block iff each coordinate is in the block's range. -/
theorem mem_blk3 (t : Fin cfg3.N) (i : S80000x32.Idx) :
    i ∈ ((cfg3.win 5).blk t).view.set ↔ ∀ a : Fin 2, win3_5.index t a * S8000x32.size a ≤ (i a).val ∧ (i a).val < win3_5.index t a * S8000x32.size a + S8000x32.size a := by
  show i ∈ ((View.whole main_v61).slice (win3_5.rect t)).set ↔ _
  rw [View.set_slice_whole, Rect.mem_set_unit]
  exact Iff.rfl

/-- The ten row bands cover the array: row r lies in band r / 8000. -/
theorem cover3 (i : S80000x32.Idx) : ∃ t : Fin cfg3.N, (cfg3.win 5).flush t = true ∧ i ∈ ((cfg3.win 5).blk t).view.set := by
  have hi0 : (i 0).val < 80000 := (i 0).isLt
  have hi1 : (i 1).val < 32 := (i 1).isLt
  have hN : cfg3.N = 10 := N_3
  let t : Fin cfg3.N := ⟨(i 0).val / 8000, by rw [hN]; omega⟩
  obtain ⟨_, _, _, _, _, _, _, _, _, _, e50, e51⟩ := idx_facts3 t
  have ht : t.val = (i 0).val / 8000 := rfl
  refine ⟨t, flush3_5 t, ?_⟩
  rw [mem_blk3]
  intro a
  match a with
  | ⟨0, _⟩ => show win3_5.index t (0 : Fin 2) * 8000 ≤ (i 0).val ∧ (i 0).val < win3_5.index t (0 : Fin 2) * 8000 + 8000; omega
  | ⟨1, _⟩ => show win3_5.index t (1 : Fin 2) * 32 ≤ (i 1).val ∧ (i 1).val < win3_5.index t (1 : Fin 2) * 32 + 32; omega

/-- After the region, the output array is the whole head of the arrays the region found. -/
theorem region3_value (c : Dev nD) :
    (dat3 V c).arrAt 5 cfg3.N = actDotBias (Ideal.ofBits .f32 0x00000000#32) (V c main_v58) (V c main_v20) (V c main_v59) (V c main_arg9) (V c main_v60) :=
  (dat3 V c).arrAt_eq_of_cover 5 _ (fun t _ => flushed3_eq V c t) cover3

end

end Cert.KernelIdeal.Layers

end
-- ==== Proof.KernelChain.lean ====
/-
  The kernel's buffers along its run, and its result as the reference's function.

  Between the launch and the return the idealized kernel alternates stretches of host operations with four pipelined
  regions. The host stretches are the reference's own operations (the degrees and their normalising columns; the edge
  gather and scatter-add; the bias vectors as rows), so a buffer they write holds the corresponding stage of the
  reference applied to the buffers they read; a region's output array holds its layer's plain sum of the arrays it read.
  Followed from the launch memory, the result buffer ends at the reference's composition of stages.
-/
import proofs.«113721_j50302656971357_2_alg».proof.Proof.Gen.KernelIdeal.Frame
import proofs.«113721_j50302656971357_2_alg».proof.Proof.Region0
import proofs.«113721_j50302656971357_2_alg».proof.Proof.Region1
import proofs.«113721_j50302656971357_2_alg».proof.Proof.Region2
import proofs.«113721_j50302656971357_2_alg».proof.Proof.Region3
import proofs.«113721_j50302656971357_2_alg».proof.Proof.RefStages
import Idealize.ShloMosaic.Lib.StableHlo.Run

noncomputable section

open scoped BigOperators

namespace Cert.KernelIdeal.Layers

open Idealize.ShloMosaic Idealize.ShloMosaic.TcCoe Idealize.SL.Sem Idealize.ShloMosaic.ValueIdx Idealize.ShloMosaic.PlainDot
open Idealize.ShloMosaic.StableHlo
open Cert.KernelIdeal Cert.KernelIdeal.Gen
open Idealize.ShloMosaic.Pipeline (Dat Cfg Window)

/-! ## Each stretch of host operations, from ANY buffer contents `V`

  What a stretch leaves in the buffers it writes, as the stage functions of what it found; and the buffers it leaves alone. -/

section Stretches
variable (V : Valuation τ sig (Elt Ideal))

theorem s0_v8 : StableHlo.after hostOps0 V (Proc.devRef .tc main_v8) = Cert.ReferenceIdeal.Stages.maskOf (F := Ideal) (Cert.ReferenceIdeal.Stages.degree (F := Ideal) (V (Proc.devRef .tc main_arg1))) := by
  dsimp only [hostOps0]
  after_results_simp
  rfl

theorem s0_v11 : StableHlo.after hostOps0 V (Proc.devRef .tc main_v11) = Cert.ReferenceIdeal.Stages.invOf (F := Ideal) (Cert.ReferenceIdeal.Stages.degree (F := Ideal) (V (Proc.devRef .tc main_arg1))) := by
  dsimp only [hostOps0]
  after_results_simp
  rfl

theorem s0_cst_4 : StableHlo.after hostOps0 V (Proc.devRef .tc main_cst_4) = constant (F := Ideal) S_ .f32 0x00000000#32 := by
  dsimp only [hostOps0]
  after_results_simp

theorem s0_v6 : StableHlo.after hostOps0 V (Proc.devRef .tc main_v6) = Cert.ReferenceIdeal.Stages.degree (F := Ideal) (V (Proc.devRef .tc main_arg2)) := by
  dsimp only [hostOps0]
  after_results_simp
  rfl

theorem s1_v12 : StableHlo.after hostOps0_1 V (Proc.devRef .tc main_v12) = Cert.ReferenceIdeal.Stages.pick (F := Ideal) (V (Proc.devRef .tc main_v8)) (V (Proc.devRef .tc main_v11)) (V (Proc.devRef .tc main_cst_4)) := by
  dsimp only [hostOps0_1]
  after_results_simp
  rfl

theorem s2_v13 : StableHlo.after hostOps0_2 V (Proc.devRef .tc main_v13) = shapeCast S80000x1 (V (Proc.devRef .tc main_v12)) shapeCasts_S80000_S80000x1 := by
  dsimp only [hostOps0_2]
  after_results_simp
  rfl

theorem s2_v15 : StableHlo.after hostOps0_2 V (Proc.devRef .tc main_v15) = Cert.ReferenceIdeal.Stages.maskOf (F := Ideal) (V (Proc.devRef .tc main_v6)) := by
  dsimp only [hostOps0_2]
  after_results_simp
  rfl

theorem s2_v18 : StableHlo.after hostOps0_2 V (Proc.devRef .tc main_v18) = Cert.ReferenceIdeal.Stages.invOf (F := Ideal) (V (Proc.devRef .tc main_v6)) := by
  dsimp only [hostOps0_2]
  after_results_simp
  rfl

theorem s2_cst_7 : StableHlo.after hostOps0_2 V (Proc.devRef .tc main_cst_7) = constant (F := Ideal) S_ .f32 0x00000000#32 := by
  dsimp only [hostOps0_2]
  after_results_simp

theorem s3_v19 : StableHlo.after hostOps0_3 V (Proc.devRef .tc main_v19) = Cert.ReferenceIdeal.Stages.pick (F := Ideal) (V (Proc.devRef .tc main_v15)) (V (Proc.devRef .tc main_v18)) (V (Proc.devRef .tc main_cst_7)) := by
  dsimp only [hostOps0_3]
  after_results_simp
  rfl

theorem s4_v20 : StableHlo.after hostOps0_4 V (Proc.devRef .tc main_v20) = shapeCast S80000x1 (V (Proc.devRef .tc main_v19)) shapeCasts_S80000_S80000x1 := by
  dsimp only [hostOps0_4]
  after_results_simp
  rfl

theorem h1_v32 : StableHlo.after hostOps1 V (Proc.devRef .tc main_v32) = Cert.ReferenceIdeal.Stages.aggregate (F := Ideal) (V (Proc.devRef .tc main_v21)) (V (Proc.devRef .tc main_arg1)) (V (Proc.devRef .tc main_arg2)) := by
  dsimp only [hostOps1]
  after_results_simp
  rfl

theorem h1_v33 : StableHlo.after hostOps1 V (Proc.devRef .tc main_v33) = shapeCast S1x64 (V (Proc.devRef .tc main_arg4)) shapeCasts_S64_S1x64 := by
  dsimp only [hostOps1]
  after_results_simp
  rfl

theorem h2_v45 : StableHlo.after hostOps2 V (Proc.devRef .tc main_v45) = Cert.ReferenceIdeal.Stages.aggregate (F := Ideal) (V (Proc.devRef .tc main_v34)) (V (Proc.devRef .tc main_arg1)) (V (Proc.devRef .tc main_arg2)) := by
  dsimp only [hostOps2]
  after_results_simp
  rfl

theorem h2_v46 : StableHlo.after hostOps2 V (Proc.devRef .tc main_v46) = shapeCast S1x64 (V (Proc.devRef .tc main_arg6)) shapeCasts_S64_S1x64 := by
  dsimp only [hostOps2]
  after_results_simp
  rfl

theorem h3_v58 : StableHlo.after hostOps3 V (Proc.devRef .tc main_v58) = Cert.ReferenceIdeal.Stages.aggregate (F := Ideal) (V (Proc.devRef .tc main_v47)) (V (Proc.devRef .tc main_arg1)) (V (Proc.devRef .tc main_arg2)) := by
  dsimp only [hostOps3]
  after_results_simp
  rfl

theorem h3_v59 : StableHlo.after hostOps3 V (Proc.devRef .tc main_v59) = shapeCast S1x64 (V (Proc.devRef .tc main_arg8)) shapeCasts_S64_S1x64 := by
  dsimp only [hostOps3]
  after_results_simp
  rfl

theorem h3_v60 : StableHlo.after hostOps3 V (Proc.devRef .tc main_v60) = shapeCast S1x32 (V (Proc.devRef .tc main_arg10)) shapeCasts_S32_S1x32 := by
  dsimp only [hostOps3]
  after_results_simp
  rfl

theorem keep_s0_arg0 : StableHlo.after hostOps0 V (Proc.devRef .tc main_arg0) = V (Proc.devRef .tc main_arg0) := by
  dsimp only [hostOps0]
  after_results_simp

theorem keep_s1_arg0 : StableHlo.after hostOps0_1 V (Proc.devRef .tc main_arg0) = V (Proc.devRef .tc main_arg0) := by
  dsimp only [hostOps0_1]
  after_results_simp

theorem keep_s2_arg0 : StableHlo.after hostOps0_2 V (Proc.devRef .tc main_arg0) = V (Proc.devRef .tc main_arg0) := by
  dsimp only [hostOps0_2]
  after_results_simp

theorem keep_s3_arg0 : StableHlo.after hostOps0_3 V (Proc.devRef .tc main_arg0) = V (Proc.devRef .tc main_arg0) := by
  dsimp only [hostOps0_3]
  after_results_simp

theorem keep_s4_arg0 : StableHlo.after hostOps0_4 V (Proc.devRef .tc main_arg0) = V (Proc.devRef .tc main_arg0) := by
  dsimp only [hostOps0_4]
  after_results_simp

theorem keep_s0_arg1 : StableHlo.after hostOps0 V (Proc.devRef .tc main_arg1) = V (Proc.devRef .tc main_arg1) := by
  dsimp only [hostOps0]
  after_results_simp

theorem keep_s1_arg1 : StableHlo.after hostOps0_1 V (Proc.devRef .tc main_arg1) = V (Proc.devRef .tc main_arg1) := by
  dsimp only [hostOps0_1]
  after_results_simp

theorem keep_s2_arg1 : StableHlo.after hostOps0_2 V (Proc.devRef .tc main_arg1) = V (Proc.devRef .tc main_arg1) := by
  dsimp only [hostOps0_2]
  after_results_simp

theorem keep_s3_arg1 : StableHlo.after hostOps0_3 V (Proc.devRef .tc main_arg1) = V (Proc.devRef .tc main_arg1) := by
  dsimp only [hostOps0_3]
  after_results_simp

theorem keep_s4_arg1 : StableHlo.after hostOps0_4 V (Proc.devRef .tc main_arg1) = V (Proc.devRef .tc main_arg1) := by
  dsimp only [hostOps0_4]
  after_results_simp

theorem keep_h1_arg1 : StableHlo.after hostOps1 V (Proc.devRef .tc main_arg1) = V (Proc.devRef .tc main_arg1) := by
  dsimp only [hostOps1]
  after_results_simp

theorem keep_h2_arg1 : StableHlo.after hostOps2 V (Proc.devRef .tc main_arg1) = V (Proc.devRef .tc main_arg1) := by
  dsimp only [hostOps2]
  after_results_simp

theorem keep_s0_arg2 : StableHlo.after hostOps0 V (Proc.devRef .tc main_arg2) = V (Proc.devRef .tc main_arg2) := by
  dsimp only [hostOps0]
  after_results_simp

theorem keep_s1_arg2 : StableHlo.after hostOps0_1 V (Proc.devRef .tc main_arg2) = V (Proc.devRef .tc main_arg2) := by
  dsimp only [hostOps0_1]
  after_results_simp

theorem keep_s2_arg2 : StableHlo.after hostOps0_2 V (Proc.devRef .tc main_arg2) = V (Proc.devRef .tc main_arg2) := by
  dsimp only [hostOps0_2]
  after_results_simp

theorem keep_s3_arg2 : StableHlo.after hostOps0_3 V (Proc.devRef .tc main_arg2) = V (Proc.devRef .tc main_arg2) := by
  dsimp only [hostOps0_3]
  after_results_simp

theorem keep_s4_arg2 : StableHlo.after hostOps0_4 V (Proc.devRef .tc main_arg2) = V (Proc.devRef .tc main_arg2) := by
  dsimp only [hostOps0_4]
  after_results_simp

theorem keep_h1_arg2 : StableHlo.after hostOps1 V (Proc.devRef .tc main_arg2) = V (Proc.devRef .tc main_arg2) := by
  dsimp only [hostOps1]
  after_results_simp

theorem keep_h2_arg2 : StableHlo.after hostOps2 V (Proc.devRef .tc main_arg2) = V (Proc.devRef .tc main_arg2) := by
  dsimp only [hostOps2]
  after_results_simp

theorem keep_s0_arg3 : StableHlo.after hostOps0 V (Proc.devRef .tc main_arg3) = V (Proc.devRef .tc main_arg3) := by
  dsimp only [hostOps0]
  after_results_simp

theorem keep_s1_arg3 : StableHlo.after hostOps0_1 V (Proc.devRef .tc main_arg3) = V (Proc.devRef .tc main_arg3) := by
  dsimp only [hostOps0_1]
  after_results_simp

theorem keep_s2_arg3 : StableHlo.after hostOps0_2 V (Proc.devRef .tc main_arg3) = V (Proc.devRef .tc main_arg3) := by
  dsimp only [hostOps0_2]
  after_results_simp

theorem keep_s3_arg3 : StableHlo.after hostOps0_3 V (Proc.devRef .tc main_arg3) = V (Proc.devRef .tc main_arg3) := by
  dsimp only [hostOps0_3]
  after_results_simp

theorem keep_s4_arg3 : StableHlo.after hostOps0_4 V (Proc.devRef .tc main_arg3) = V (Proc.devRef .tc main_arg3) := by
  dsimp only [hostOps0_4]
  after_results_simp

theorem keep_s0_arg4 : StableHlo.after hostOps0 V (Proc.devRef .tc main_arg4) = V (Proc.devRef .tc main_arg4) := by
  dsimp only [hostOps0]
  after_results_simp

theorem keep_s1_arg4 : StableHlo.after hostOps0_1 V (Proc.devRef .tc main_arg4) = V (Proc.devRef .tc main_arg4) := by
  dsimp only [hostOps0_1]
  after_results_simp

theorem keep_s2_arg4 : StableHlo.after hostOps0_2 V (Proc.devRef .tc main_arg4) = V (Proc.devRef .tc main_arg4) := by
  dsimp only [hostOps0_2]
  after_results_simp

theorem keep_s3_arg4 : StableHlo.after hostOps0_3 V (Proc.devRef .tc main_arg4) = V (Proc.devRef .tc main_arg4) := by
  dsimp only [hostOps0_3]
  after_results_simp

theorem keep_s4_arg4 : StableHlo.after hostOps0_4 V (Proc.devRef .tc main_arg4) = V (Proc.devRef .tc main_arg4) := by
  dsimp only [hostOps0_4]
  after_results_simp

theorem keep_s0_arg5 : StableHlo.after hostOps0 V (Proc.devRef .tc main_arg5) = V (Proc.devRef .tc main_arg5) := by
  dsimp only [hostOps0]
  after_results_simp

theorem keep_s1_arg5 : StableHlo.after hostOps0_1 V (Proc.devRef .tc main_arg5) = V (Proc.devRef .tc main_arg5) := by
  dsimp only [hostOps0_1]
  after_results_simp

theorem keep_s2_arg5 : StableHlo.after hostOps0_2 V (Proc.devRef .tc main_arg5) = V (Proc.devRef .tc main_arg5) := by
  dsimp only [hostOps0_2]
  after_results_simp

theorem keep_s3_arg5 : StableHlo.after hostOps0_3 V (Proc.devRef .tc main_arg5) = V (Proc.devRef .tc main_arg5) := by
  dsimp only [hostOps0_3]
  after_results_simp

theorem keep_s4_arg5 : StableHlo.after hostOps0_4 V (Proc.devRef .tc main_arg5) = V (Proc.devRef .tc main_arg5) := by
  dsimp only [hostOps0_4]
  after_results_simp

theorem keep_h1_arg5 : StableHlo.after hostOps1 V (Proc.devRef .tc main_arg5) = V (Proc.devRef .tc main_arg5) := by
  dsimp only [hostOps1]
  after_results_simp

theorem keep_s0_arg6 : StableHlo.after hostOps0 V (Proc.devRef .tc main_arg6) = V (Proc.devRef .tc main_arg6) := by
  dsimp only [hostOps0]
  after_results_simp

theorem keep_s1_arg6 : StableHlo.after hostOps0_1 V (Proc.devRef .tc main_arg6) = V (Proc.devRef .tc main_arg6) := by
  dsimp only [hostOps0_1]
  after_results_simp

theorem keep_s2_arg6 : StableHlo.after hostOps0_2 V (Proc.devRef .tc main_arg6) = V (Proc.devRef .tc main_arg6) := by
  dsimp only [hostOps0_2]
  after_results_simp

theorem keep_s3_arg6 : StableHlo.after hostOps0_3 V (Proc.devRef .tc main_arg6) = V (Proc.devRef .tc main_arg6) := by
  dsimp only [hostOps0_3]
  after_results_simp

theorem keep_s4_arg6 : StableHlo.after hostOps0_4 V (Proc.devRef .tc main_arg6) = V (Proc.devRef .tc main_arg6) := by
  dsimp only [hostOps0_4]
  after_results_simp

theorem keep_h1_arg6 : StableHlo.after hostOps1 V (Proc.devRef .tc main_arg6) = V (Proc.devRef .tc main_arg6) := by
  dsimp only [hostOps1]
  after_results_simp

theorem keep_s0_arg7 : StableHlo.after hostOps0 V (Proc.devRef .tc main_arg7) = V (Proc.devRef .tc main_arg7) := by
  dsimp only [hostOps0]
  after_results_simp

theorem keep_s1_arg7 : StableHlo.after hostOps0_1 V (Proc.devRef .tc main_arg7) = V (Proc.devRef .tc main_arg7) := by
  dsimp only [hostOps0_1]
  after_results_simp

theorem keep_s2_arg7 : StableHlo.after hostOps0_2 V (Proc.devRef .tc main_arg7) = V (Proc.devRef .tc main_arg7) := by
  dsimp only [hostOps0_2]
  after_results_simp

theorem keep_s3_arg7 : StableHlo.after hostOps0_3 V (Proc.devRef .tc main_arg7) = V (Proc.devRef .tc main_arg7) := by
  dsimp only [hostOps0_3]
  after_results_simp

theorem keep_s4_arg7 : StableHlo.after hostOps0_4 V (Proc.devRef .tc main_arg7) = V (Proc.devRef .tc main_arg7) := by
  dsimp only [hostOps0_4]
  after_results_simp

theorem keep_h1_arg7 : StableHlo.after hostOps1 V (Proc.devRef .tc main_arg7) = V (Proc.devRef .tc main_arg7) := by
  dsimp only [hostOps1]
  after_results_simp

theorem keep_h2_arg7 : StableHlo.after hostOps2 V (Proc.devRef .tc main_arg7) = V (Proc.devRef .tc main_arg7) := by
  dsimp only [hostOps2]
  after_results_simp

theorem keep_s0_arg8 : StableHlo.after hostOps0 V (Proc.devRef .tc main_arg8) = V (Proc.devRef .tc main_arg8) := by
  dsimp only [hostOps0]
  after_results_simp

theorem keep_s1_arg8 : StableHlo.after hostOps0_1 V (Proc.devRef .tc main_arg8) = V (Proc.devRef .tc main_arg8) := by
  dsimp only [hostOps0_1]
  after_results_simp

theorem keep_s2_arg8 : StableHlo.after hostOps0_2 V (Proc.devRef .tc main_arg8) = V (Proc.devRef .tc main_arg8) := by
  dsimp only [hostOps0_2]
  after_results_simp

theorem keep_s3_arg8 : StableHlo.after hostOps0_3 V (Proc.devRef .tc main_arg8) = V (Proc.devRef .tc main_arg8) := by
  dsimp only [hostOps0_3]
  after_results_simp

theorem keep_s4_arg8 : StableHlo.after hostOps0_4 V (Proc.devRef .tc main_arg8) = V (Proc.devRef .tc main_arg8) := by
  dsimp only [hostOps0_4]
  after_results_simp

theorem keep_h1_arg8 : StableHlo.after hostOps1 V (Proc.devRef .tc main_arg8) = V (Proc.devRef .tc main_arg8) := by
  dsimp only [hostOps1]
  after_results_simp

theorem keep_h2_arg8 : StableHlo.after hostOps2 V (Proc.devRef .tc main_arg8) = V (Proc.devRef .tc main_arg8) := by
  dsimp only [hostOps2]
  after_results_simp

theorem keep_s0_arg9 : StableHlo.after hostOps0 V (Proc.devRef .tc main_arg9) = V (Proc.devRef .tc main_arg9) := by
  dsimp only [hostOps0]
  after_results_simp

theorem keep_s1_arg9 : StableHlo.after hostOps0_1 V (Proc.devRef .tc main_arg9) = V (Proc.devRef .tc main_arg9) := by
  dsimp only [hostOps0_1]
  after_results_simp

theorem keep_s2_arg9 : StableHlo.after hostOps0_2 V (Proc.devRef .tc main_arg9) = V (Proc.devRef .tc main_arg9) := by
  dsimp only [hostOps0_2]
  after_results_simp

theorem keep_s3_arg9 : StableHlo.after hostOps0_3 V (Proc.devRef .tc main_arg9) = V (Proc.devRef .tc main_arg9) := by
  dsimp only [hostOps0_3]
  after_results_simp

theorem keep_s4_arg9 : StableHlo.after hostOps0_4 V (Proc.devRef .tc main_arg9) = V (Proc.devRef .tc main_arg9) := by
  dsimp only [hostOps0_4]
  after_results_simp

theorem keep_h1_arg9 : StableHlo.after hostOps1 V (Proc.devRef .tc main_arg9) = V (Proc.devRef .tc main_arg9) := by
  dsimp only [hostOps1]
  after_results_simp

theorem keep_h2_arg9 : StableHlo.after hostOps2 V (Proc.devRef .tc main_arg9) = V (Proc.devRef .tc main_arg9) := by
  dsimp only [hostOps2]
  after_results_simp

theorem keep_h3_arg9 : StableHlo.after hostOps3 V (Proc.devRef .tc main_arg9) = V (Proc.devRef .tc main_arg9) := by
  dsimp only [hostOps3]
  after_results_simp

theorem keep_s0_arg10 : StableHlo.after hostOps0 V (Proc.devRef .tc main_arg10) = V (Proc.devRef .tc main_arg10) := by
  dsimp only [hostOps0]
  after_results_simp

theorem keep_s1_arg10 : StableHlo.after hostOps0_1 V (Proc.devRef .tc main_arg10) = V (Proc.devRef .tc main_arg10) := by
  dsimp only [hostOps0_1]
  after_results_simp

theorem keep_s2_arg10 : StableHlo.after hostOps0_2 V (Proc.devRef .tc main_arg10) = V (Proc.devRef .tc main_arg10) := by
  dsimp only [hostOps0_2]
  after_results_simp

theorem keep_s3_arg10 : StableHlo.after hostOps0_3 V (Proc.devRef .tc main_arg10) = V (Proc.devRef .tc main_arg10) := by
  dsimp only [hostOps0_3]
  after_results_simp

theorem keep_s4_arg10 : StableHlo.after hostOps0_4 V (Proc.devRef .tc main_arg10) = V (Proc.devRef .tc main_arg10) := by
  dsimp only [hostOps0_4]
  after_results_simp

theorem keep_h1_arg10 : StableHlo.after hostOps1 V (Proc.devRef .tc main_arg10) = V (Proc.devRef .tc main_arg10) := by
  dsimp only [hostOps1]
  after_results_simp

theorem keep_h2_arg10 : StableHlo.after hostOps2 V (Proc.devRef .tc main_arg10) = V (Proc.devRef .tc main_arg10) := by
  dsimp only [hostOps2]
  after_results_simp

theorem keep_s1_v6 : StableHlo.after hostOps0_1 V (Proc.devRef .tc main_v6) = V (Proc.devRef .tc main_v6) := by
  dsimp only [hostOps0_1]
  after_results_simp

theorem keep_s3_v13 : StableHlo.after hostOps0_3 V (Proc.devRef .tc main_v13) = V (Proc.devRef .tc main_v13) := by
  dsimp only [hostOps0_3]
  after_results_simp

theorem keep_s4_v13 : StableHlo.after hostOps0_4 V (Proc.devRef .tc main_v13) = V (Proc.devRef .tc main_v13) := by
  dsimp only [hostOps0_4]
  after_results_simp

theorem keep_h1_v13 : StableHlo.after hostOps1 V (Proc.devRef .tc main_v13) = V (Proc.devRef .tc main_v13) := by
  dsimp only [hostOps1]
  after_results_simp

theorem keep_h2_v13 : StableHlo.after hostOps2 V (Proc.devRef .tc main_v13) = V (Proc.devRef .tc main_v13) := by
  dsimp only [hostOps2]
  after_results_simp

theorem keep_h1_v20 : StableHlo.after hostOps1 V (Proc.devRef .tc main_v20) = V (Proc.devRef .tc main_v20) := by
  dsimp only [hostOps1]
  after_results_simp

theorem keep_h2_v20 : StableHlo.after hostOps2 V (Proc.devRef .tc main_v20) = V (Proc.devRef .tc main_v20) := by
  dsimp only [hostOps2]
  after_results_simp

theorem keep_h3_v20 : StableHlo.after hostOps3 V (Proc.devRef .tc main_v20) = V (Proc.devRef .tc main_v20) := by
  dsimp only [hostOps3]
  after_results_simp

end Stretches

/-! ## The buffers along the run

  Each boundary's contents, from the launch memory `m`: the arguments never change, the two degree columns are computed
  before the first region and then only read, and each layer's array is the layer's function of the arrays before it. -/

variable (m : (ℓ : Loc nD τ sig) → Buf (Elt Ideal) ℓ) (ρ : Dev nD → PrngReg) (c : Dev nD)

theorem at0_arg0 : W0 m ρ c (Proc.devRef .tc main_arg0) = (m ((c : Thread nD τ).loc main_arg0)) := rfl

theorem at0_arg1 : W0 m ρ c (Proc.devRef .tc main_arg1) = (m ((c : Thread nD τ).loc main_arg1)) := rfl

theorem at0_arg2 : W0 m ρ c (Proc.devRef .tc main_arg2) = (m ((c : Thread nD τ).loc main_arg2)) := rfl

theorem at0_arg3 : W0 m ρ c (Proc.devRef .tc main_arg3) = (m ((c : Thread nD τ).loc main_arg3)) := rfl

theorem at0_arg4 : W0 m ρ c (Proc.devRef .tc main_arg4) = (m ((c : Thread nD τ).loc main_arg4)) := rfl

theorem at0_arg5 : W0 m ρ c (Proc.devRef .tc main_arg5) = (m ((c : Thread nD τ).loc main_arg5)) := rfl

theorem at0_arg6 : W0 m ρ c (Proc.devRef .tc main_arg6) = (m ((c : Thread nD τ).loc main_arg6)) := rfl

theorem at0_arg7 : W0 m ρ c (Proc.devRef .tc main_arg7) = (m ((c : Thread nD τ).loc main_arg7)) := rfl

theorem at0_arg8 : W0 m ρ c (Proc.devRef .tc main_arg8) = (m ((c : Thread nD τ).loc main_arg8)) := rfl

theorem at0_arg9 : W0 m ρ c (Proc.devRef .tc main_arg9) = (m ((c : Thread nD τ).loc main_arg9)) := rfl

theorem at0_arg10 : W0 m ρ c (Proc.devRef .tc main_arg10) = (m ((c : Thread nD τ).loc main_arg10)) := rfl

/-! ### Boundary 1 -/

theorem at1_arg0 : W1 m ρ c (Proc.devRef .tc main_arg0) = (m ((c : Thread nD τ).loc main_arg0)) :=
  (keep_s0_arg0 (W0 m ρ c)).trans (at0_arg0 m ρ c)

theorem at1_arg1 : W1 m ρ c (Proc.devRef .tc main_arg1) = (m ((c : Thread nD τ).loc main_arg1)) :=
  (keep_s0_arg1 (W0 m ρ c)).trans (at0_arg1 m ρ c)

theorem at1_arg2 : W1 m ρ c (Proc.devRef .tc main_arg2) = (m ((c : Thread nD τ).loc main_arg2)) :=
  (keep_s0_arg2 (W0 m ρ c)).trans (at0_arg2 m ρ c)

theorem at1_arg3 : W1 m ρ c (Proc.devRef .tc main_arg3) = (m ((c : Thread nD τ).loc main_arg3)) :=
  (keep_s0_arg3 (W0 m ρ c)).trans (at0_arg3 m ρ c)

theorem at1_arg4 : W1 m ρ c (Proc.devRef .tc main_arg4) = (m ((c : Thread nD τ).loc main_arg4)) :=
  (keep_s0_arg4 (W0 m ρ c)).trans (at0_arg4 m ρ c)

theorem at1_arg5 : W1 m ρ c (Proc.devRef .tc main_arg5) = (m ((c : Thread nD τ).loc main_arg5)) :=
  (keep_s0_arg5 (W0 m ρ c)).trans (at0_arg5 m ρ c)

theorem at1_arg6 : W1 m ρ c (Proc.devRef .tc main_arg6) = (m ((c : Thread nD τ).loc main_arg6)) :=
  (keep_s0_arg6 (W0 m ρ c)).trans (at0_arg6 m ρ c)

theorem at1_arg7 : W1 m ρ c (Proc.devRef .tc main_arg7) = (m ((c : Thread nD τ).loc main_arg7)) :=
  (keep_s0_arg7 (W0 m ρ c)).trans (at0_arg7 m ρ c)

theorem at1_arg8 : W1 m ρ c (Proc.devRef .tc main_arg8) = (m ((c : Thread nD τ).loc main_arg8)) :=
  (keep_s0_arg8 (W0 m ρ c)).trans (at0_arg8 m ρ c)

theorem at1_arg9 : W1 m ρ c (Proc.devRef .tc main_arg9) = (m ((c : Thread nD τ).loc main_arg9)) :=
  (keep_s0_arg9 (W0 m ρ c)).trans (at0_arg9 m ρ c)

theorem at1_arg10 : W1 m ρ c (Proc.devRef .tc main_arg10) = (m ((c : Thread nD τ).loc main_arg10)) :=
  (keep_s0_arg10 (W0 m ρ c)).trans (at0_arg10 m ρ c)

theorem at1_v6 : W1 m ρ c (Proc.devRef .tc main_v6) = (Cert.ReferenceIdeal.Stages.degree (F := Ideal) (m ((c : Thread nD τ).loc main_arg2))) :=
  (s0_v6 (W0 m ρ c)).trans (congrArg (Cert.ReferenceIdeal.Stages.degree (F := Ideal)) (at0_arg2 m ρ c))

theorem at1_v8 : W1 m ρ c (Proc.devRef .tc main_v8) = Cert.ReferenceIdeal.Stages.maskOf (F := Ideal) (Cert.ReferenceIdeal.Stages.degree (F := Ideal) (m ((c : Thread nD τ).loc main_arg1))) :=
  (s0_v8 (W0 m ρ c)).trans (congrArg (fun x => Cert.ReferenceIdeal.Stages.maskOf (F := Ideal) (Cert.ReferenceIdeal.Stages.degree (F := Ideal) x)) (at0_arg1 m ρ c))

theorem at1_v11 : W1 m ρ c (Proc.devRef .tc main_v11) = Cert.ReferenceIdeal.Stages.invOf (F := Ideal) (Cert.ReferenceIdeal.Stages.degree (F := Ideal) (m ((c : Thread nD τ).loc main_arg1))) :=
  (s0_v11 (W0 m ρ c)).trans (congrArg (fun x => Cert.ReferenceIdeal.Stages.invOf (F := Ideal) (Cert.ReferenceIdeal.Stages.degree (F := Ideal) x)) (at0_arg1 m ρ c))

theorem at1_cst_4 : W1 m ρ c (Proc.devRef .tc main_cst_4) = constant (F := Ideal) S_ .f32 0x00000000#32 := s0_cst_4 (W0 m ρ c)

/-! ### Boundary 2 -/

theorem at2_arg0 : W2 m ρ c (Proc.devRef .tc main_arg0) = (m ((c : Thread nD τ).loc main_arg0)) :=
  (keep_s1_arg0 (W1 m ρ c)).trans (at1_arg0 m ρ c)

theorem at2_arg1 : W2 m ρ c (Proc.devRef .tc main_arg1) = (m ((c : Thread nD τ).loc main_arg1)) :=
  (keep_s1_arg1 (W1 m ρ c)).trans (at1_arg1 m ρ c)

theorem at2_arg2 : W2 m ρ c (Proc.devRef .tc main_arg2) = (m ((c : Thread nD τ).loc main_arg2)) :=
  (keep_s1_arg2 (W1 m ρ c)).trans (at1_arg2 m ρ c)

theorem at2_arg3 : W2 m ρ c (Proc.devRef .tc main_arg3) = (m ((c : Thread nD τ).loc main_arg3)) :=
  (keep_s1_arg3 (W1 m ρ c)).trans (at1_arg3 m ρ c)

theorem at2_arg4 : W2 m ρ c (Proc.devRef .tc main_arg4) = (m ((c : Thread nD τ).loc main_arg4)) :=
  (keep_s1_arg4 (W1 m ρ c)).trans (at1_arg4 m ρ c)

theorem at2_arg5 : W2 m ρ c (Proc.devRef .tc main_arg5) = (m ((c : Thread nD τ).loc main_arg5)) :=
  (keep_s1_arg5 (W1 m ρ c)).trans (at1_arg5 m ρ c)

theorem at2_arg6 : W2 m ρ c (Proc.devRef .tc main_arg6) = (m ((c : Thread nD τ).loc main_arg6)) :=
  (keep_s1_arg6 (W1 m ρ c)).trans (at1_arg6 m ρ c)

theorem at2_arg7 : W2 m ρ c (Proc.devRef .tc main_arg7) = (m ((c : Thread nD τ).loc main_arg7)) :=
  (keep_s1_arg7 (W1 m ρ c)).trans (at1_arg7 m ρ c)

theorem at2_arg8 : W2 m ρ c (Proc.devRef .tc main_arg8) = (m ((c : Thread nD τ).loc main_arg8)) :=
  (keep_s1_arg8 (W1 m ρ c)).trans (at1_arg8 m ρ c)

theorem at2_arg9 : W2 m ρ c (Proc.devRef .tc main_arg9) = (m ((c : Thread nD τ).loc main_arg9)) :=
  (keep_s1_arg9 (W1 m ρ c)).trans (at1_arg9 m ρ c)

theorem at2_arg10 : W2 m ρ c (Proc.devRef .tc main_arg10) = (m ((c : Thread nD τ).loc main_arg10)) :=
  (keep_s1_arg10 (W1 m ρ c)).trans (at1_arg10 m ρ c)

theorem at2_v6 : W2 m ρ c (Proc.devRef .tc main_v6) = (Cert.ReferenceIdeal.Stages.degree (F := Ideal) (m ((c : Thread nD τ).loc main_arg2))) :=
  (keep_s1_v6 (W1 m ρ c)).trans (at1_v6 m ρ c)

theorem at2_v12 : W2 m ρ c (Proc.devRef .tc main_v12) = Cert.ReferenceIdeal.Stages.norm1 (F := Ideal) (m ((c : Thread nD τ).loc main_arg1)) := by
  refine (s1_v12 (W1 m ρ c)).trans ?_
  rw [at1_v8 m ρ c, at1_v11 m ρ c, at1_cst_4 m ρ c]
  rfl

/-! ### Boundary 3 -/

theorem at3_arg0 : W3 m ρ c (Proc.devRef .tc main_arg0) = (m ((c : Thread nD τ).loc main_arg0)) :=
  (keep_s2_arg0 (W2 m ρ c)).trans (at2_arg0 m ρ c)

theorem at3_arg1 : W3 m ρ c (Proc.devRef .tc main_arg1) = (m ((c : Thread nD τ).loc main_arg1)) :=
  (keep_s2_arg1 (W2 m ρ c)).trans (at2_arg1 m ρ c)

theorem at3_arg2 : W3 m ρ c (Proc.devRef .tc main_arg2) = (m ((c : Thread nD τ).loc main_arg2)) :=
  (keep_s2_arg2 (W2 m ρ c)).trans (at2_arg2 m ρ c)

theorem at3_arg3 : W3 m ρ c (Proc.devRef .tc main_arg3) = (m ((c : Thread nD τ).loc main_arg3)) :=
  (keep_s2_arg3 (W2 m ρ c)).trans (at2_arg3 m ρ c)

theorem at3_arg4 : W3 m ρ c (Proc.devRef .tc main_arg4) = (m ((c : Thread nD τ).loc main_arg4)) :=
  (keep_s2_arg4 (W2 m ρ c)).trans (at2_arg4 m ρ c)

theorem at3_arg5 : W3 m ρ c (Proc.devRef .tc main_arg5) = (m ((c : Thread nD τ).loc main_arg5)) :=
  (keep_s2_arg5 (W2 m ρ c)).trans (at2_arg5 m ρ c)

theorem at3_arg6 : W3 m ρ c (Proc.devRef .tc main_arg6) = (m ((c : Thread nD τ).loc main_arg6)) :=
  (keep_s2_arg6 (W2 m ρ c)).trans (at2_arg6 m ρ c)

theorem at3_arg7 : W3 m ρ c (Proc.devRef .tc main_arg7) = (m ((c : Thread nD τ).loc main_arg7)) :=
  (keep_s2_arg7 (W2 m ρ c)).trans (at2_arg7 m ρ c)

theorem at3_arg8 : W3 m ρ c (Proc.devRef .tc main_arg8) = (m ((c : Thread nD τ).loc main_arg8)) :=
  (keep_s2_arg8 (W2 m ρ c)).trans (at2_arg8 m ρ c)

theorem at3_arg9 : W3 m ρ c (Proc.devRef .tc main_arg9) = (m ((c : Thread nD τ).loc main_arg9)) :=
  (keep_s2_arg9 (W2 m ρ c)).trans (at2_arg9 m ρ c)

theorem at3_arg10 : W3 m ρ c (Proc.devRef .tc main_arg10) = (m ((c : Thread nD τ).loc main_arg10)) :=
  (keep_s2_arg10 (W2 m ρ c)).trans (at2_arg10 m ρ c)

theorem at3_v13 : W3 m ρ c (Proc.devRef .tc main_v13) = (Cert.ReferenceIdeal.Stages.norm (F := Ideal) (m ((c : Thread nD τ).loc main_arg1))) := by
  refine (s2_v13 (W2 m ρ c)).trans ?_
  rw [at2_v12 m ρ c]
  exact Cert.ReferenceIdeal.Stages.keepdims_eq _ _

theorem at3_v15 : W3 m ρ c (Proc.devRef .tc main_v15) = Cert.ReferenceIdeal.Stages.maskOf (F := Ideal) (Cert.ReferenceIdeal.Stages.degree (F := Ideal) (m ((c : Thread nD τ).loc main_arg2))) :=
  (s2_v15 (W2 m ρ c)).trans (congrArg (Cert.ReferenceIdeal.Stages.maskOf (F := Ideal)) (at2_v6 m ρ c))

theorem at3_v18 : W3 m ρ c (Proc.devRef .tc main_v18) = Cert.ReferenceIdeal.Stages.invOf (F := Ideal) (Cert.ReferenceIdeal.Stages.degree (F := Ideal) (m ((c : Thread nD τ).loc main_arg2))) :=
  (s2_v18 (W2 m ρ c)).trans (congrArg (Cert.ReferenceIdeal.Stages.invOf (F := Ideal)) (at2_v6 m ρ c))

theorem at3_cst_7 : W3 m ρ c (Proc.devRef .tc main_cst_7) = constant (F := Ideal) S_ .f32 0x00000000#32 := s2_cst_7 (W2 m ρ c)

/-! ### Boundary 4 -/

theorem at4_arg0 : W4 m ρ c (Proc.devRef .tc main_arg0) = (m ((c : Thread nD τ).loc main_arg0)) :=
  (keep_s3_arg0 (W3 m ρ c)).trans (at3_arg0 m ρ c)

theorem at4_arg1 : W4 m ρ c (Proc.devRef .tc main_arg1) = (m ((c : Thread nD τ).loc main_arg1)) :=
  (keep_s3_arg1 (W3 m ρ c)).trans (at3_arg1 m ρ c)

theorem at4_arg2 : W4 m ρ c (Proc.devRef .tc main_arg2) = (m ((c : Thread nD τ).loc main_arg2)) :=
  (keep_s3_arg2 (W3 m ρ c)).trans (at3_arg2 m ρ c)

theorem at4_arg3 : W4 m ρ c (Proc.devRef .tc main_arg3) = (m ((c : Thread nD τ).loc main_arg3)) :=
  (keep_s3_arg3 (W3 m ρ c)).trans (at3_arg3 m ρ c)

theorem at4_arg4 : W4 m ρ c (Proc.devRef .tc main_arg4) = (m ((c : Thread nD τ).loc main_arg4)) :=
  (keep_s3_arg4 (W3 m ρ c)).trans (at3_arg4 m ρ c)

theorem at4_arg5 : W4 m ρ c (Proc.devRef .tc main_arg5) = (m ((c : Thread nD τ).loc main_arg5)) :=
  (keep_s3_arg5 (W3 m ρ c)).trans (at3_arg5 m ρ c)

theorem at4_arg6 : W4 m ρ c (Proc.devRef .tc main_arg6) = (m ((c : Thread nD τ).loc main_arg6)) :=
  (keep_s3_arg6 (W3 m ρ c)).trans (at3_arg6 m ρ c)

theorem at4_arg7 : W4 m ρ c (Proc.devRef .tc main_arg7) = (m ((c : Thread nD τ).loc main_arg7)) :=
  (keep_s3_arg7 (W3 m ρ c)).trans (at3_arg7 m ρ c)

theorem at4_arg8 : W4 m ρ c (Proc.devRef .tc main_arg8) = (m ((c : Thread nD τ).loc main_arg8)) :=
  (keep_s3_arg8 (W3 m ρ c)).trans (at3_arg8 m ρ c)

theorem at4_arg9 : W4 m ρ c (Proc.devRef .tc main_arg9) = (m ((c : Thread nD τ).loc main_arg9)) :=
  (keep_s3_arg9 (W3 m ρ c)).trans (at3_arg9 m ρ c)

theorem at4_arg10 : W4 m ρ c (Proc.devRef .tc main_arg10) = (m ((c : Thread nD τ).loc main_arg10)) :=
  (keep_s3_arg10 (W3 m ρ c)).trans (at3_arg10 m ρ c)

theorem at4_v13 : W4 m ρ c (Proc.devRef .tc main_v13) = (Cert.ReferenceIdeal.Stages.norm (F := Ideal) (m ((c : Thread nD τ).loc main_arg1))) :=
  (keep_s3_v13 (W3 m ρ c)).trans (at3_v13 m ρ c)

theorem at4_v19 : W4 m ρ c (Proc.devRef .tc main_v19) = Cert.ReferenceIdeal.Stages.norm1 (F := Ideal) (m ((c : Thread nD τ).loc main_arg2)) := by
  refine (s3_v19 (W3 m ρ c)).trans ?_
  rw [at3_v15 m ρ c, at3_v18 m ρ c, at3_cst_7 m ρ c]
  rfl

/-! ### Boundary 5 -/

theorem at5_arg0 : W5 m ρ c (Proc.devRef .tc main_arg0) = (m ((c : Thread nD τ).loc main_arg0)) :=
  (keep_s4_arg0 (W4 m ρ c)).trans (at4_arg0 m ρ c)

theorem at5_arg1 : W5 m ρ c (Proc.devRef .tc main_arg1) = (m ((c : Thread nD τ).loc main_arg1)) :=
  (keep_s4_arg1 (W4 m ρ c)).trans (at4_arg1 m ρ c)

theorem at5_arg2 : W5 m ρ c (Proc.devRef .tc main_arg2) = (m ((c : Thread nD τ).loc main_arg2)) :=
  (keep_s4_arg2 (W4 m ρ c)).trans (at4_arg2 m ρ c)

theorem at5_arg3 : W5 m ρ c (Proc.devRef .tc main_arg3) = (m ((c : Thread nD τ).loc main_arg3)) :=
  (keep_s4_arg3 (W4 m ρ c)).trans (at4_arg3 m ρ c)

theorem at5_arg4 : W5 m ρ c (Proc.devRef .tc main_arg4) = (m ((c : Thread nD τ).loc main_arg4)) :=
  (keep_s4_arg4 (W4 m ρ c)).trans (at4_arg4 m ρ c)

theorem at5_arg5 : W5 m ρ c (Proc.devRef .tc main_arg5) = (m ((c : Thread nD τ).loc main_arg5)) :=
  (keep_s4_arg5 (W4 m ρ c)).trans (at4_arg5 m ρ c)

theorem at5_arg6 : W5 m ρ c (Proc.devRef .tc main_arg6) = (m ((c : Thread nD τ).loc main_arg6)) :=
  (keep_s4_arg6 (W4 m ρ c)).trans (at4_arg6 m ρ c)

theorem at5_arg7 : W5 m ρ c (Proc.devRef .tc main_arg7) = (m ((c : Thread nD τ).loc main_arg7)) :=
  (keep_s4_arg7 (W4 m ρ c)).trans (at4_arg7 m ρ c)

theorem at5_arg8 : W5 m ρ c (Proc.devRef .tc main_arg8) = (m ((c : Thread nD τ).loc main_arg8)) :=
  (keep_s4_arg8 (W4 m ρ c)).trans (at4_arg8 m ρ c)

theorem at5_arg9 : W5 m ρ c (Proc.devRef .tc main_arg9) = (m ((c : Thread nD τ).loc main_arg9)) :=
  (keep_s4_arg9 (W4 m ρ c)).trans (at4_arg9 m ρ c)

theorem at5_arg10 : W5 m ρ c (Proc.devRef .tc main_arg10) = (m ((c : Thread nD τ).loc main_arg10)) :=
  (keep_s4_arg10 (W4 m ρ c)).trans (at4_arg10 m ρ c)

theorem at5_v13 : W5 m ρ c (Proc.devRef .tc main_v13) = (Cert.ReferenceIdeal.Stages.norm (F := Ideal) (m ((c : Thread nD τ).loc main_arg1))) :=
  (keep_s4_v13 (W4 m ρ c)).trans (at4_v13 m ρ c)

theorem at5_v20 : W5 m ρ c (Proc.devRef .tc main_v20) = (Cert.ReferenceIdeal.Stages.norm (F := Ideal) (m ((c : Thread nD τ).loc main_arg2))) := by
  refine (s4_v20 (W4 m ρ c)).trans ?_
  rw [at4_v19 m ρ c]
  exact Cert.ReferenceIdeal.Stages.keepdims_eq _ _

/-! ### Boundary 6 -/

theorem at6_arg1 : W6 m ρ c (Proc.devRef .tc main_arg1) = (m ((c : Thread nD τ).loc main_arg1)) :=
  (W6_of_ne m ρ c main_arg1 (by decide)).trans (at5_arg1 m ρ c)

theorem at6_arg2 : W6 m ρ c (Proc.devRef .tc main_arg2) = (m ((c : Thread nD τ).loc main_arg2)) :=
  (W6_of_ne m ρ c main_arg2 (by decide)).trans (at5_arg2 m ρ c)

theorem at6_arg4 : W6 m ρ c (Proc.devRef .tc main_arg4) = (m ((c : Thread nD τ).loc main_arg4)) :=
  (W6_of_ne m ρ c main_arg4 (by decide)).trans (at5_arg4 m ρ c)

theorem at6_arg5 : W6 m ρ c (Proc.devRef .tc main_arg5) = (m ((c : Thread nD τ).loc main_arg5)) :=
  (W6_of_ne m ρ c main_arg5 (by decide)).trans (at5_arg5 m ρ c)

theorem at6_arg6 : W6 m ρ c (Proc.devRef .tc main_arg6) = (m ((c : Thread nD τ).loc main_arg6)) :=
  (W6_of_ne m ρ c main_arg6 (by decide)).trans (at5_arg6 m ρ c)

theorem at6_arg7 : W6 m ρ c (Proc.devRef .tc main_arg7) = (m ((c : Thread nD τ).loc main_arg7)) :=
  (W6_of_ne m ρ c main_arg7 (by decide)).trans (at5_arg7 m ρ c)

theorem at6_arg8 : W6 m ρ c (Proc.devRef .tc main_arg8) = (m ((c : Thread nD τ).loc main_arg8)) :=
  (W6_of_ne m ρ c main_arg8 (by decide)).trans (at5_arg8 m ρ c)

theorem at6_arg9 : W6 m ρ c (Proc.devRef .tc main_arg9) = (m ((c : Thread nD τ).loc main_arg9)) :=
  (W6_of_ne m ρ c main_arg9 (by decide)).trans (at5_arg9 m ρ c)

theorem at6_arg10 : W6 m ρ c (Proc.devRef .tc main_arg10) = (m ((c : Thread nD τ).loc main_arg10)) :=
  (W6_of_ne m ρ c main_arg10 (by decide)).trans (at5_arg10 m ρ c)

theorem at6_v13 : W6 m ρ c (Proc.devRef .tc main_v13) = (Cert.ReferenceIdeal.Stages.norm (F := Ideal) (m ((c : Thread nD τ).loc main_arg1))) :=
  ((W6_arr m ρ c 1).trans (((dat0 (V5 m ρ) c).arrAt_in 1 rfl _).trans (A_eq0 (V5 m ρ) c 1))).trans (at5_v13 m ρ c)

theorem at6_v20 : W6 m ρ c (Proc.devRef .tc main_v20) = (Cert.ReferenceIdeal.Stages.norm (F := Ideal) (m ((c : Thread nD τ).loc main_arg2))) :=
  (W6_of_ne m ρ c main_v20 (by decide)).trans (at5_v20 m ρ c)

/-! ### Boundary 7 -/

theorem at7_arg1 : W7 m ρ c (Proc.devRef .tc main_arg1) = (m ((c : Thread nD τ).loc main_arg1)) :=
  (keep_h1_arg1 (W6 m ρ c)).trans (at6_arg1 m ρ c)

theorem at7_arg2 : W7 m ρ c (Proc.devRef .tc main_arg2) = (m ((c : Thread nD τ).loc main_arg2)) :=
  (keep_h1_arg2 (W6 m ρ c)).trans (at6_arg2 m ρ c)

theorem at7_arg5 : W7 m ρ c (Proc.devRef .tc main_arg5) = (m ((c : Thread nD τ).loc main_arg5)) :=
  (keep_h1_arg5 (W6 m ρ c)).trans (at6_arg5 m ρ c)

theorem at7_arg6 : W7 m ρ c (Proc.devRef .tc main_arg6) = (m ((c : Thread nD τ).loc main_arg6)) :=
  (keep_h1_arg6 (W6 m ρ c)).trans (at6_arg6 m ρ c)

theorem at7_arg7 : W7 m ρ c (Proc.devRef .tc main_arg7) = (m ((c : Thread nD τ).loc main_arg7)) :=
  (keep_h1_arg7 (W6 m ρ c)).trans (at6_arg7 m ρ c)

theorem at7_arg8 : W7 m ρ c (Proc.devRef .tc main_arg8) = (m ((c : Thread nD τ).loc main_arg8)) :=
  (keep_h1_arg8 (W6 m ρ c)).trans (at6_arg8 m ρ c)

theorem at7_arg9 : W7 m ρ c (Proc.devRef .tc main_arg9) = (m ((c : Thread nD τ).loc main_arg9)) :=
  (keep_h1_arg9 (W6 m ρ c)).trans (at6_arg9 m ρ c)

theorem at7_arg10 : W7 m ρ c (Proc.devRef .tc main_arg10) = (m ((c : Thread nD τ).loc main_arg10)) :=
  (keep_h1_arg10 (W6 m ρ c)).trans (at6_arg10 m ρ c)

theorem at7_v13 : W7 m ρ c (Proc.devRef .tc main_v13) = (Cert.ReferenceIdeal.Stages.norm (F := Ideal) (m ((c : Thread nD τ).loc main_arg1))) :=
  (keep_h1_v13 (W6 m ρ c)).trans (at6_v13 m ρ c)

theorem at7_v20 : W7 m ρ c (Proc.devRef .tc main_v20) = (Cert.ReferenceIdeal.Stages.norm (F := Ideal) (m ((c : Thread nD τ).loc main_arg2))) :=
  (keep_h1_v20 (W6 m ρ c)).trans (at6_v20 m ρ c)

/-! ### Boundary 8 -/

theorem at8_arg1 : W8 m ρ c (Proc.devRef .tc main_arg1) = (m ((c : Thread nD τ).loc main_arg1)) :=
  (W8_of_ne m ρ c main_arg1 (by decide)).trans (at7_arg1 m ρ c)

theorem at8_arg2 : W8 m ρ c (Proc.devRef .tc main_arg2) = (m ((c : Thread nD τ).loc main_arg2)) :=
  (W8_of_ne m ρ c main_arg2 (by decide)).trans (at7_arg2 m ρ c)

theorem at8_arg6 : W8 m ρ c (Proc.devRef .tc main_arg6) = (m ((c : Thread nD τ).loc main_arg6)) :=
  (W8_of_ne m ρ c main_arg6 (by decide)).trans (at7_arg6 m ρ c)

theorem at8_arg7 : W8 m ρ c (Proc.devRef .tc main_arg7) = (m ((c : Thread nD τ).loc main_arg7)) :=
  (W8_of_ne m ρ c main_arg7 (by decide)).trans (at7_arg7 m ρ c)

theorem at8_arg8 : W8 m ρ c (Proc.devRef .tc main_arg8) = (m ((c : Thread nD τ).loc main_arg8)) :=
  (W8_of_ne m ρ c main_arg8 (by decide)).trans (at7_arg8 m ρ c)

theorem at8_arg9 : W8 m ρ c (Proc.devRef .tc main_arg9) = (m ((c : Thread nD τ).loc main_arg9)) :=
  (W8_of_ne m ρ c main_arg9 (by decide)).trans (at7_arg9 m ρ c)

theorem at8_arg10 : W8 m ρ c (Proc.devRef .tc main_arg10) = (m ((c : Thread nD τ).loc main_arg10)) :=
  (W8_of_ne m ρ c main_arg10 (by decide)).trans (at7_arg10 m ρ c)

theorem at8_v13 : W8 m ρ c (Proc.devRef .tc main_v13) = (Cert.ReferenceIdeal.Stages.norm (F := Ideal) (m ((c : Thread nD τ).loc main_arg1))) :=
  ((W8_arr m ρ c 3).trans (((dat1 (V7 m ρ) c).arrAt_in 3 rfl _).trans (A_eq1 (V7 m ρ) c 3))).trans (at7_v13 m ρ c)

theorem at8_v20 : W8 m ρ c (Proc.devRef .tc main_v20) = (Cert.ReferenceIdeal.Stages.norm (F := Ideal) (m ((c : Thread nD τ).loc main_arg2))) :=
  ((W8_arr m ρ c 1).trans (((dat1 (V7 m ρ) c).arrAt_in 1 rfl _).trans (A_eq1 (V7 m ρ) c 1))).trans (at7_v20 m ρ c)

/-! ### Boundary 9 -/

theorem at9_arg1 : W9 m ρ c (Proc.devRef .tc main_arg1) = (m ((c : Thread nD τ).loc main_arg1)) :=
  (keep_h2_arg1 (W8 m ρ c)).trans (at8_arg1 m ρ c)

theorem at9_arg2 : W9 m ρ c (Proc.devRef .tc main_arg2) = (m ((c : Thread nD τ).loc main_arg2)) :=
  (keep_h2_arg2 (W8 m ρ c)).trans (at8_arg2 m ρ c)

theorem at9_arg7 : W9 m ρ c (Proc.devRef .tc main_arg7) = (m ((c : Thread nD τ).loc main_arg7)) :=
  (keep_h2_arg7 (W8 m ρ c)).trans (at8_arg7 m ρ c)

theorem at9_arg8 : W9 m ρ c (Proc.devRef .tc main_arg8) = (m ((c : Thread nD τ).loc main_arg8)) :=
  (keep_h2_arg8 (W8 m ρ c)).trans (at8_arg8 m ρ c)

theorem at9_arg9 : W9 m ρ c (Proc.devRef .tc main_arg9) = (m ((c : Thread nD τ).loc main_arg9)) :=
  (keep_h2_arg9 (W8 m ρ c)).trans (at8_arg9 m ρ c)

theorem at9_arg10 : W9 m ρ c (Proc.devRef .tc main_arg10) = (m ((c : Thread nD τ).loc main_arg10)) :=
  (keep_h2_arg10 (W8 m ρ c)).trans (at8_arg10 m ρ c)

theorem at9_v13 : W9 m ρ c (Proc.devRef .tc main_v13) = (Cert.ReferenceIdeal.Stages.norm (F := Ideal) (m ((c : Thread nD τ).loc main_arg1))) :=
  (keep_h2_v13 (W8 m ρ c)).trans (at8_v13 m ρ c)

theorem at9_v20 : W9 m ρ c (Proc.devRef .tc main_v20) = (Cert.ReferenceIdeal.Stages.norm (F := Ideal) (m ((c : Thread nD τ).loc main_arg2))) :=
  (keep_h2_v20 (W8 m ρ c)).trans (at8_v20 m ρ c)

/-! ### Boundary 10 -/

theorem at10_arg1 : W10 m ρ c (Proc.devRef .tc main_arg1) = (m ((c : Thread nD τ).loc main_arg1)) :=
  (W10_of_ne m ρ c main_arg1 (by decide)).trans (at9_arg1 m ρ c)

theorem at10_arg2 : W10 m ρ c (Proc.devRef .tc main_arg2) = (m ((c : Thread nD τ).loc main_arg2)) :=
  (W10_of_ne m ρ c main_arg2 (by decide)).trans (at9_arg2 m ρ c)

theorem at10_arg8 : W10 m ρ c (Proc.devRef .tc main_arg8) = (m ((c : Thread nD τ).loc main_arg8)) :=
  (W10_of_ne m ρ c main_arg8 (by decide)).trans (at9_arg8 m ρ c)

theorem at10_arg9 : W10 m ρ c (Proc.devRef .tc main_arg9) = (m ((c : Thread nD τ).loc main_arg9)) :=
  (W10_of_ne m ρ c main_arg9 (by decide)).trans (at9_arg9 m ρ c)

theorem at10_arg10 : W10 m ρ c (Proc.devRef .tc main_arg10) = (m ((c : Thread nD τ).loc main_arg10)) :=
  (W10_of_ne m ρ c main_arg10 (by decide)).trans (at9_arg10 m ρ c)

theorem at10_v20 : W10 m ρ c (Proc.devRef .tc main_v20) = (Cert.ReferenceIdeal.Stages.norm (F := Ideal) (m ((c : Thread nD τ).loc main_arg2))) :=
  ((W10_arr m ρ c 1).trans (((dat2 (V9 m ρ) c).arrAt_in 1 rfl _).trans (A_eq2 (V9 m ρ) c 1))).trans (at9_v20 m ρ c)

/-! ### Boundary 11 -/

theorem at11_arg9 : W11 m ρ c (Proc.devRef .tc main_arg9) = (m ((c : Thread nD τ).loc main_arg9)) :=
  (keep_h3_arg9 (W10 m ρ c)).trans (at10_arg9 m ρ c)

theorem at11_v20 : W11 m ρ c (Proc.devRef .tc main_v20) = (Cert.ReferenceIdeal.Stages.norm (F := Ideal) (m ((c : Thread nD τ).loc main_arg2))) :=
  (keep_h3_v20 (W10 m ρ c)).trans (at10_v20 m ρ c)

/-! ### Boundary 12 -/

/-! ### The layers -/

theorem at6_v21 : W6 m ρ c (Proc.devRef .tc main_v21) = (scaleDot (M := 80000) (K := 128) (N := 64) (m ((c : Thread nD τ).loc main_arg0)) (Cert.ReferenceIdeal.Stages.norm (F := Ideal) (m ((c : Thread nD τ).loc main_arg1))) (m ((c : Thread nD τ).loc main_arg3))) := by
  refine (W6_arr m ρ c 3).trans ((region0_value (V5 m ρ) c).trans ?_)
  rw [show V5 m ρ c main_arg0 = (m ((c : Thread nD τ).loc main_arg0)) from at5_arg0 m ρ c, show V5 m ρ c main_v13 = (Cert.ReferenceIdeal.Stages.norm (F := Ideal) (m ((c : Thread nD τ).loc main_arg1))) from at5_v13 m ρ c,
    show V5 m ρ c main_arg3 = (m ((c : Thread nD τ).loc main_arg3)) from at5_arg3 m ρ c]

theorem at7_v32 : W7 m ρ c (Proc.devRef .tc main_v32) = (Cert.ReferenceIdeal.Stages.aggregate (F := Ideal) (scaleDot (M := 80000) (K := 128) (N := 64) (m ((c : Thread nD τ).loc main_arg0)) (Cert.ReferenceIdeal.Stages.norm (F := Ideal) (m ((c : Thread nD τ).loc main_arg1))) (m ((c : Thread nD τ).loc main_arg3))) (m ((c : Thread nD τ).loc main_arg1)) (m ((c : Thread nD τ).loc main_arg2))) := by
  refine (h1_v32 (W6 m ρ c)).trans ?_
  rw [at6_v21 m ρ c, at6_arg1 m ρ c, at6_arg2 m ρ c]

theorem at7_v33 : W7 m ρ c (Proc.devRef .tc main_v33) = (Cert.ReferenceIdeal.Stages.biasRow (F := Ideal) (m ((c : Thread nD τ).loc main_arg4))) := by
  refine (h1_v33 (W6 m ρ c)).trans ?_
  rw [at6_arg4 m ρ c]
  exact Cert.ReferenceIdeal.Stages.biasRow_eq _ _

theorem at8_v34 : W8 m ρ c (Proc.devRef .tc main_v34) = (actScaleDot (M := 80000) (K := 64) (N := 64) (Ideal.ofBits .f32 0x00000000#32) (Cert.ReferenceIdeal.Stages.aggregate (F := Ideal) (scaleDot (M := 80000) (K := 128) (N := 64) (m ((c : Thread nD τ).loc main_arg0)) (Cert.ReferenceIdeal.Stages.norm (F := Ideal) (m ((c : Thread nD τ).loc main_arg1))) (m ((c : Thread nD τ).loc main_arg3))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg4))) (Cert.ReferenceIdeal.Stages.norm (F := Ideal) (m ((c : Thread nD τ).loc main_arg1))) (m ((c : Thread nD τ).loc main_arg5))) := by
  refine (W8_arr m ρ c 5).trans ((region1_value (V7 m ρ) c).trans ?_)
  rw [show V7 m ρ c main_v32 = (Cert.ReferenceIdeal.Stages.aggregate (F := Ideal) (scaleDot (M := 80000) (K := 128) (N := 64) (m ((c : Thread nD τ).loc main_arg0)) (Cert.ReferenceIdeal.Stages.norm (F := Ideal) (m ((c : Thread nD τ).loc main_arg1))) (m ((c : Thread nD τ).loc main_arg3))) (m ((c : Thread nD τ).loc main_arg1)) (m ((c : Thread nD τ).loc main_arg2))) from at7_v32 m ρ c, show V7 m ρ c main_v20 = (Cert.ReferenceIdeal.Stages.norm (F := Ideal) (m ((c : Thread nD τ).loc main_arg2))) from at7_v20 m ρ c,
    show V7 m ρ c main_v33 = (Cert.ReferenceIdeal.Stages.biasRow (F := Ideal) (m ((c : Thread nD τ).loc main_arg4))) from at7_v33 m ρ c, show V7 m ρ c main_v13 = (Cert.ReferenceIdeal.Stages.norm (F := Ideal) (m ((c : Thread nD τ).loc main_arg1))) from at7_v13 m ρ c,
    show V7 m ρ c main_arg5 = (m ((c : Thread nD τ).loc main_arg5)) from at7_arg5 m ρ c]

theorem at9_v45 : W9 m ρ c (Proc.devRef .tc main_v45) = (Cert.ReferenceIdeal.Stages.aggregate (F := Ideal) (actScaleDot (M := 80000) (K := 64) (N := 64) (Ideal.ofBits .f32 0x00000000#32) (Cert.ReferenceIdeal.Stages.aggregate (F := Ideal) (scaleDot (M := 80000) (K := 128) (N := 64) (m ((c : Thread nD τ).loc main_arg0)) (Cert.ReferenceIdeal.Stages.norm (F := Ideal) (m ((c : Thread nD τ).loc main_arg1))) (m ((c : Thread nD τ).loc main_arg3))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg4))) (Cert.ReferenceIdeal.Stages.norm (F := Ideal) (m ((c : Thread nD τ).loc main_arg1))) (m ((c : Thread nD τ).loc main_arg5))) (m ((c : Thread nD τ).loc main_arg1)) (m ((c : Thread nD τ).loc main_arg2))) := by
  refine (h2_v45 (W8 m ρ c)).trans ?_
  rw [at8_v34 m ρ c, at8_arg1 m ρ c, at8_arg2 m ρ c]

theorem at9_v46 : W9 m ρ c (Proc.devRef .tc main_v46) = (Cert.ReferenceIdeal.Stages.biasRow (F := Ideal) (m ((c : Thread nD τ).loc main_arg6))) := by
  refine (h2_v46 (W8 m ρ c)).trans ?_
  rw [at8_arg6 m ρ c]
  exact Cert.ReferenceIdeal.Stages.biasRow_eq _ _

theorem at10_v47 : W10 m ρ c (Proc.devRef .tc main_v47) = (actScaleDot (M := 80000) (K := 64) (N := 64) (Ideal.ofBits .f32 0x00000000#32) (Cert.ReferenceIdeal.Stages.aggregate (F := Ideal) (actScaleDot (M := 80000) (K := 64) (N := 64) (Ideal.ofBits .f32 0x00000000#32) (Cert.ReferenceIdeal.Stages.aggregate (F := Ideal) (scaleDot (M := 80000) (K := 128) (N := 64) (m ((c : Thread nD τ).loc main_arg0)) (Cert.ReferenceIdeal.Stages.norm (F := Ideal) (m ((c : Thread nD τ).loc main_arg1))) (m ((c : Thread nD τ).loc main_arg3))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg4))) (Cert.ReferenceIdeal.Stages.norm (F := Ideal) (m ((c : Thread nD τ).loc main_arg1))) (m ((c : Thread nD τ).loc main_arg5))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg6))) (Cert.ReferenceIdeal.Stages.norm (F := Ideal) (m ((c : Thread nD τ).loc main_arg1))) (m ((c : Thread nD τ).loc main_arg7))) := by
  refine (W10_arr m ρ c 5).trans ((region2_value (V9 m ρ) c).trans ?_)
  rw [show V9 m ρ c main_v45 = (Cert.ReferenceIdeal.Stages.aggregate (F := Ideal) (actScaleDot (M := 80000) (K := 64) (N := 64) (Ideal.ofBits .f32 0x00000000#32) (Cert.ReferenceIdeal.Stages.aggregate (F := Ideal) (scaleDot (M := 80000) (K := 128) (N := 64) (m ((c : Thread nD τ).loc main_arg0)) (Cert.ReferenceIdeal.Stages.norm (F := Ideal) (m ((c : Thread nD τ).loc main_arg1))) (m ((c : Thread nD τ).loc main_arg3))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg4))) (Cert.ReferenceIdeal.Stages.norm (F := Ideal) (m ((c : Thread nD τ).loc main_arg1))) (m ((c : Thread nD τ).loc main_arg5))) (m ((c : Thread nD τ).loc main_arg1)) (m ((c : Thread nD τ).loc main_arg2))) from at9_v45 m ρ c, show V9 m ρ c main_v20 = (Cert.ReferenceIdeal.Stages.norm (F := Ideal) (m ((c : Thread nD τ).loc main_arg2))) from at9_v20 m ρ c,
    show V9 m ρ c main_v46 = (Cert.ReferenceIdeal.Stages.biasRow (F := Ideal) (m ((c : Thread nD τ).loc main_arg6))) from at9_v46 m ρ c, show V9 m ρ c main_v13 = (Cert.ReferenceIdeal.Stages.norm (F := Ideal) (m ((c : Thread nD τ).loc main_arg1))) from at9_v13 m ρ c,
    show V9 m ρ c main_arg7 = (m ((c : Thread nD τ).loc main_arg7)) from at9_arg7 m ρ c]

theorem at11_v58 : W11 m ρ c (Proc.devRef .tc main_v58) = (Cert.ReferenceIdeal.Stages.aggregate (F := Ideal) (actScaleDot (M := 80000) (K := 64) (N := 64) (Ideal.ofBits .f32 0x00000000#32) (Cert.ReferenceIdeal.Stages.aggregate (F := Ideal) (actScaleDot (M := 80000) (K := 64) (N := 64) (Ideal.ofBits .f32 0x00000000#32) (Cert.ReferenceIdeal.Stages.aggregate (F := Ideal) (scaleDot (M := 80000) (K := 128) (N := 64) (m ((c : Thread nD τ).loc main_arg0)) (Cert.ReferenceIdeal.Stages.norm (F := Ideal) (m ((c : Thread nD τ).loc main_arg1))) (m ((c : Thread nD τ).loc main_arg3))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg4))) (Cert.ReferenceIdeal.Stages.norm (F := Ideal) (m ((c : Thread nD τ).loc main_arg1))) (m ((c : Thread nD τ).loc main_arg5))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg6))) (Cert.ReferenceIdeal.Stages.norm (F := Ideal) (m ((c : Thread nD τ).loc main_arg1))) (m ((c : Thread nD τ).loc main_arg7))) (m ((c : Thread nD τ).loc main_arg1)) (m ((c : Thread nD τ).loc main_arg2))) := by
  refine (h3_v58 (W10 m ρ c)).trans ?_
  rw [at10_v47 m ρ c, at10_arg1 m ρ c, at10_arg2 m ρ c]

theorem at11_v59 : W11 m ρ c (Proc.devRef .tc main_v59) = (Cert.ReferenceIdeal.Stages.biasRow (F := Ideal) (m ((c : Thread nD τ).loc main_arg8))) := by
  refine (h3_v59 (W10 m ρ c)).trans ?_
  rw [at10_arg8 m ρ c]
  exact Cert.ReferenceIdeal.Stages.biasRow_eq _ _

theorem at11_v60 : W11 m ρ c (Proc.devRef .tc main_v60) = Cert.ReferenceIdeal.Stages.headRow (F := Ideal) (m ((c : Thread nD τ).loc main_arg10)) := by
  refine (h3_v60 (W10 m ρ c)).trans ?_
  rw [at10_arg10 m ρ c]
  exact Cert.ReferenceIdeal.Stages.headRow_eq _ _

theorem at12_v61 : W12 m ρ c (Proc.devRef .tc main_v61) = (actDotBias (M := 80000) (K := 64) (N := 32) (Ideal.ofBits .f32 0x00000000#32) (Cert.ReferenceIdeal.Stages.aggregate (F := Ideal) (actScaleDot (M := 80000) (K := 64) (N := 64) (Ideal.ofBits .f32 0x00000000#32) (Cert.ReferenceIdeal.Stages.aggregate (F := Ideal) (actScaleDot (M := 80000) (K := 64) (N := 64) (Ideal.ofBits .f32 0x00000000#32) (Cert.ReferenceIdeal.Stages.aggregate (F := Ideal) (scaleDot (M := 80000) (K := 128) (N := 64) (m ((c : Thread nD τ).loc main_arg0)) (Cert.ReferenceIdeal.Stages.norm (F := Ideal) (m ((c : Thread nD τ).loc main_arg1))) (m ((c : Thread nD τ).loc main_arg3))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg4))) (Cert.ReferenceIdeal.Stages.norm (F := Ideal) (m ((c : Thread nD τ).loc main_arg1))) (m ((c : Thread nD τ).loc main_arg5))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg6))) (Cert.ReferenceIdeal.Stages.norm (F := Ideal) (m ((c : Thread nD τ).loc main_arg1))) (m ((c : Thread nD τ).loc main_arg7))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg8))) (m ((c : Thread nD τ).loc main_arg9)) (Cert.ReferenceIdeal.Stages.headRow (F := Ideal) (m ((c : Thread nD τ).loc main_arg10)))) := by
  refine (W12_arr m ρ c 5).trans ((region3_value (V11 m ρ) c).trans ?_)
  rw [show V11 m ρ c main_v58 = (Cert.ReferenceIdeal.Stages.aggregate (F := Ideal) (actScaleDot (M := 80000) (K := 64) (N := 64) (Ideal.ofBits .f32 0x00000000#32) (Cert.ReferenceIdeal.Stages.aggregate (F := Ideal) (actScaleDot (M := 80000) (K := 64) (N := 64) (Ideal.ofBits .f32 0x00000000#32) (Cert.ReferenceIdeal.Stages.aggregate (F := Ideal) (scaleDot (M := 80000) (K := 128) (N := 64) (m ((c : Thread nD τ).loc main_arg0)) (Cert.ReferenceIdeal.Stages.norm (F := Ideal) (m ((c : Thread nD τ).loc main_arg1))) (m ((c : Thread nD τ).loc main_arg3))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg4))) (Cert.ReferenceIdeal.Stages.norm (F := Ideal) (m ((c : Thread nD τ).loc main_arg1))) (m ((c : Thread nD τ).loc main_arg5))) (m ((c : Thread nD τ).loc main_arg1)) (m ((c : Thread nD τ).loc main_arg2))) (Cert.ReferenceIdeal.Stages.norm (F := Ideal) (m ((c : Thread nD τ).loc main_arg2))) (Cert.ReferenceIdeal.Stages.biasRow (F := Ideal) (m ((c : Thread nD τ).loc main_arg6))) (Cert.ReferenceIdeal.Stages.norm (F := Ideal) (m ((c : Thread nD τ).loc main_arg1))) (m ((c : Thread nD τ).loc main_arg7))) (m ((c : Thread nD τ).loc main_arg1)) (m ((c : Thread nD τ).loc main_arg2))) from at11_v58 m ρ c, show V11 m ρ c main_v20 = (Cert.ReferenceIdeal.Stages.norm (F := Ideal) (m ((c : Thread nD τ).loc main_arg2))) from at11_v20 m ρ c,
    show V11 m ρ c main_v59 = (Cert.ReferenceIdeal.Stages.biasRow (F := Ideal) (m ((c : Thread nD τ).loc main_arg8))) from at11_v59 m ρ c, show V11 m ρ c main_arg9 = (m ((c : Thread nD τ).loc main_arg9)) from at11_arg9 m ρ c,
    show V11 m ρ c main_v60 = Cert.ReferenceIdeal.Stages.headRow (F := Ideal) (m ((c : Thread nD τ).loc main_arg10)) from at11_v60 m ρ c]

/-- The kernel's result buffer ends at the reference's function of the launch contents of the eleven arguments. -/
theorem kernel_value : W12 m ρ c (Proc.devRef .tc main_v61)
    = Cert.ReferenceIdeal.Stages.whole (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (at12_v61 m ρ c).trans (Cert.ReferenceIdeal.Stages.whole_eq _ _ _ _ _ _ _ _ _ _ _).symm

end Cert.KernelIdeal.Layers

end
-- ==== Proof.lean ====
/-
  A three-layer graph convolution with a linear head, on 80000 nodes and 1280000 edges: the tiled kernel against the
  plain reference, over the extended reals.

  Both programs compute each node's out- and in-degree factor from the edge lists, and then three times: scale every
  row of the features by its node's out-degree factor and multiply by a weight matrix; send each edge's source row to
  the edge's destination and sum there; scale by the in-degree factor, add the bias and floor at zero. A last product
  with a bias gives the 80000×32 result. The reference does each dense step on whole arrays; the kernel does it in ten
  bands of 8000 rows, and stores the transformed features in a narrower float format between the dense steps and the
  gather. Over the extended reals a change of format is the identity and a matrix product is the same sum however it
  is tiled, and each row of a dense step depends only on the same row of its inputs, so the ten bands are the bands of
  the whole-array result; the irregular gather and scatter-add are the same operations on both sides. No law that
  needs finiteness is used: the two results are the same sums of the same products, index by index.
-/
import proofs.«113721_j50302656971357_2_alg».proof.Defs
import proofs.«113721_j50302656971357_2_alg».proof.Proof.Gen.Kernel
import proofs.«113721_j50302656971357_2_alg».proof.Proof.Gen.Kernel.Skeleton
import proofs.«113721_j50302656971357_2_alg».proof.Proof.Gen.Kernel.Launch
import proofs.«113721_j50302656971357_2_alg».proof.Proof.Gen.Kernel.Points
import proofs.«113721_j50302656971357_2_alg».proof.Proof.Gen.Kernel.Frame
import proofs.«113721_j50302656971357_2_alg».proof.Proof.Gen.KernelIdeal
import proofs.«113721_j50302656971357_2_alg».proof.Proof.Gen.KernelIdeal.Skeleton
import proofs.«113721_j50302656971357_2_alg».proof.Proof.Gen.KernelIdeal.Launch
import proofs.«113721_j50302656971357_2_alg».proof.Proof.Gen.KernelIdeal.Points
import proofs.«113721_j50302656971357_2_alg».proof.Proof.Gen.KernelIdeal.Frame
import proofs.«113721_j50302656971357_2_alg».proof.Proof.Gen.ReferenceIdeal
import proofs.«113721_j50302656971357_2_alg».proof.Proof.Gen.Pre_finite_inputs
import Idealize.ShloMosaic.Adequacy
import Idealize.ShloMosaic.Init
import proofs.«113721_j50302656971357_2_alg».proof.Proof.RefRunP
import proofs.«113721_j50302656971357_2_alg».proof.Proof.RefStages
import proofs.«113721_j50302656971357_2_alg».proof.Proof.KernelRun
import proofs.«113721_j50302656971357_2_alg».proof.Proof.KernelChain

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result dropped, is its frame. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read over the extended reals. -/
theorem preserves : Cert.preserves_Kernel_KernelIdeal := trivial

/-- From memories that agree on the eleven arguments both programs end with the same 80000×32 array: the kernel's
    result buffer holds the reference's composition of stages applied to the arguments, and so does the reference's. -/
theorem algebraic : Cert.algebraic_KernelIdeal_ReferenceIdeal := by
  intro m ρ m' ρ' _ hagree
  refine ⟨fun c => Cert.KernelIdeal.Gen.W12 m ρ c (Proc.devRef .tc Cert.KernelIdeal.main_v61),
    Cert.KernelIdeal.Layers.run_ends (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  rw [Cert.ReferenceIdeal.Stages.res_eq, e0, e1, e2, e3, e4, e5, e6, e7, e8, e9, e10]
  exact (Cert.KernelIdeal.Layers.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
